-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x16 : Shape := ⟨2, ![4096, 16]⟩
abbrev S16x4096 : Shape := ⟨2, ![16, 4096]⟩
abbrev S4096 : Shape := ⟨1, ![4096]⟩
abbrev S24x4096 : Shape := ⟨2, ![24, 4096]⟩
abbrev S24 : Shape := ⟨1, ![24]⟩
abbrev S1x24 : Shape := ⟨2, ![1, 24]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_
  bcast_S_S24x4096 : S_.BroadcastsInDim S24x4096 (![] : Fin 0 → Fin S24x4096.rank)
  reducesTo_S24x4096_S_d0_1 : S24x4096.ReducesTo [0, 1] S_
  bcast_S_S24 : S_.BroadcastsInDim S24 (![] : Fin 0 → Fin S24.rank)
  reducesTo_S24_S_d0 : S24.ReducesTo [0] S_
  bcast_S_S1x24 : S_.BroadcastsInDim S1x24 (![] : Fin 0 → Fin S1x24.rank)
  reducesTo_S1x24_S_d0_1 : S1x24.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x24 .f32) (main_v50 : FVec F S1x24 .f32) : IVec S_ 1 :=
  let main_v51 : IVec S1x24 1 := cmpf .olt main_v49 main_v50
  let main_c_19 : IVec S_ 1 := constantI S_ 1 1#1
  let main_v52 : IVec S_ 1 := (fun x v => Host.reduce IntOp.andi x v reducesTo_S1x24_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S4096 .f32) (main_arg8 : FVec F S24x4096 .f32) (main_arg9 : FVec F S24 .f32) (main_arg10 : FVec F S1x24 .f32) (main_arg11 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S24x4096 .f32 := Host.absf main_arg8
  let main_cst_14 : FVec F S_ .f32 := constant S_ .f32 0x7F800000#32
  let main_v40 : FVec F S24x4096 .f32 := broadcastInDim S24x4096 ![] bcast_S_S24x4096 main_cst_14
  let main_v41 : IVec S24x4096 1 := cmpf .olt main_v39 main_v40
  let main_c_15 : IVec S_ 1 := constantI S_ 1 1#1
  let main_v42 : IVec S_ 1 := (fun x v => Host.reduce IntOp.andi x v reducesTo_S24x4096_S_d0_1 h_S_) main_v41 main_c_15
  let main_v43 : IVec S_ 1 := andi main_v38 main_v42
  let main_v44 : FVec F S24 .f32 := Host.absf main_arg9
  let main_cst_16 : FVec F S_ .f32 := constant S_ .f32 0x7F800000#32
  let main_v45 : FVec F S24 .f32 := broadcastInDim S24 ![] bcast_S_S24 main_cst_16
  let main_v46 : IVec S24 1 := cmpf .olt main_v44 main_v45
  let main_c_17 : IVec S_ 1 := constantI S_ 1 1#1
  let main_v47 : IVec S_ 1 := (fun x v => Host.reduce IntOp.andi x v reducesTo_S24_S_d0 h_S_) main_v46 main_c_17
  let main_v48 : IVec S_ 1 := andi main_v43 main_v47
  let main_v49 : FVec F S1x24 .f32 := Host.absf main_arg10
  let main_cst_18 : FVec F S_ .f32 := constant S_ .f32 0x7F800000#32
  let main_v50 : FVec F S1x24 .f32 := broadcastInDim S1x24 ![] bcast_S_S1x24 main_cst_18
  fn_part3 (F := F) main_arg11 main_v48 main_v49 main_v50

def fn_part1 {F : FTy → Type} [FloatOps F] (main_arg4 : FVec F S4096 .f32) (main_arg5 : FVec F S4096x16 .f32) (main_arg6 : FVec F S16x4096 .f32) (main_arg7 : FVec F S4096 .f32) (main_arg8 : FVec F S24x4096 .f32) (main_arg9 : FVec F S24 .f32) (main_arg10 : FVec F S1x24 .f32) (main_arg11 : FVec F S1 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x4096 .f32) (main_arg1 : FVec F S8192x4096 .f32) (main_arg2 : FVec F S4096x16 .f32) (main_arg3 : FVec F S16x4096 .f32) (main_arg4 : FVec F S4096 .f32) (main_arg5 : FVec F S4096x16 .f32) (main_arg6 : FVec F S16x4096 .f32) (main_arg7 : FVec F S4096 .f32) (main_arg8 : FVec F S24x4096 .f32) (main_arg9 : FVec F S24 .f32) (main_arg10 : FVec F S1x24 .f32) (main_arg11 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_arg6 main_arg7 main_arg8 main_arg9 main_arg10 main_arg11 main_v13 main_v16
-- ==== Kernel.lean ====
abbrev S8192x4096 : Shape := ⟨2, ![8192, 4096]⟩
abbrev S4096x16 : Shape := ⟨2, ![4096, 16]⟩
abbrev S16x4096 : Shape := ⟨2, ![16, 4096]⟩
abbrev S4096 : Shape := ⟨1, ![4096]⟩
abbrev S24x4096 : Shape := ⟨2, ![24, 4096]⟩
abbrev S24 : Shape := ⟨1, ![24]⟩
abbrev S1x24 : Shape := ⟨2, ![1, 24]⟩
abbrev S1 : Shape := ⟨1, ![1]⟩
abbrev S1x4096 : Shape := ⟨2, ![1, 4096]⟩
abbrev S1024x4096 : Shape := ⟨2, ![1024, 4096]⟩
abbrev S_ : Shape := ⟨0, ![]⟩
abbrev S1x1 : Shape := ⟨2, ![1, 1]⟩
abbrev S8192x1 : Shape := ⟨2, ![8192, 1]⟩
abbrev S256x4096 : Shape := ⟨2, ![256, 4096]⟩
abbrev S256x1 : Shape := ⟨2, ![256, 1]⟩
abbrev S256x16 : Shape := ⟨2, ![256, 16]⟩
abbrev S256 : Shape := ⟨1, ![256]⟩
abbrev S256x24 : Shape := ⟨2, ![256, 24]⟩

abbrev nBuf : Space → Nat
  | .hbm => 32
  | .vmem => 24
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S4096x16, .f32⟩
  | .hbm, ⟨6, _⟩ => ⟨S16x4096, .f32⟩
  | .hbm, ⟨7, _⟩ => ⟨S4096, .f32⟩
  | .hbm, ⟨8, _⟩ => ⟨S24x4096, .f32⟩
  | .hbm, ⟨9, _⟩ => ⟨S24, .f32⟩
  | .hbm, ⟨10, _⟩ => ⟨S1x24, .f32⟩
  | .hbm, ⟨11, _⟩ => ⟨S1, .f32⟩
  | .hbm, ⟨12, _⟩ => ⟨S1x4096, .f32⟩
  | .hbm, ⟨13, _⟩ => ⟨S1x4096, .f32⟩
  | .hbm, ⟨14, _⟩ => ⟨S_, .f32⟩
  | .hbm, ⟨15, _⟩ => ⟨S1x4096, .f32⟩
  | .hbm, ⟨16, _⟩ => ⟨S1x4096, .f32⟩
  | .hbm, ⟨17, _⟩ => ⟨S_, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x24, .f32⟩
  | .hbm, ⟨29, _⟩ => ⟨S1x1, .f32⟩
  | .hbm, ⟨30, _⟩ => ⟨S8192x4096, .f32⟩
  | .hbm, ⟨31, _⟩ => ⟨S8192x1, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S1x4096, .f32⟩
  | .local _ .vmem, ⟨10, _⟩ => ⟨S4096x16, .f32⟩
  | .local _ .vmem, ⟨11, _⟩ => ⟨S16x4096, .f32⟩
  | .local _ .vmem, ⟨12, _⟩ => ⟨S1x4096, .f32⟩
  | .local _ .vmem, ⟨13, _⟩ => ⟨S4096x16, .f32⟩
  | .local _ .vmem, ⟨14, _⟩ => ⟨S16x4096, .f32⟩
  | .local _ .vmem, ⟨15, _⟩ => ⟨S1x4096, .f32⟩
  | .local _ .vmem, ⟨16, _⟩ => ⟨S24x4096, .f32⟩
  | .local _ .vmem, ⟨17, _⟩ => ⟨S1x24, .f32⟩
  | .local _ .vmem, ⟨18, _⟩ => ⟨S1x24, .f32⟩
  | .local _ .vmem, ⟨19, _⟩ => ⟨S1x1, .f32⟩
  | .local _ .vmem, ⟨20, _⟩ => ⟨S256x4096, .f32⟩
  | .local _ .vmem, ⟨21, _⟩ => ⟨S256x4096, .f32⟩
  | .local _ .vmem, ⟨22, _⟩ => ⟨S256x1, .f32⟩
  | .local _ .vmem, ⟨23, _⟩ => ⟨S256x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg14_0 : Ref sig .tc := ⟨.vmem, 20, rfl⟩
abbrev cc1_stg14_1 : Ref sig .tc := ⟨.vmem, 21, rfl⟩
abbrev cc1_stg15_0 : Ref sig .tc := ⟨.vmem, 22, rfl⟩
abbrev cc1_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem14_1 : DmaSem sig := 21
abbrev cc1_sem15_0 : DmaSem sig := 22
abbrev cc1_sem15_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S24x4096 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x24 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x24 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S256x4096 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  inb_S1x4096_S1x4096_0_0 : ∀ a, (![0, 0] : Fin 2 → Nat) a + S1x4096.size a ≤ S1x4096.size a
  h_S1x4096 : 0 < S1x4096.numel
  inb_S1024x4096_S1024x4096_0_0 : ∀ a, (![0, 0] : Fin 2 → Nat) a + S1024x4096.size a ≤ S1024x4096.size a
  h_S1024x4096 : 0 < S1024x4096.numel
  shapeCasts_S1x4096_S1x4096 : S1x4096.ShapeCasts S1x4096
  reduces_S1024x4096_S4096 : S1024x4096.Reduces [0] S4096
  shapeCasts_S4096_S1x4096 : S4096.ShapeCasts S1x4096
  bcast_S_S1x4096 : S_.BroadcastsInDim S1x4096 (![] : Fin 0 → Fin S1x4096.rank)
  shapeCasts_S24_S1x24 : S24.ShapeCasts S1x24
  shapeCasts_S1_S1x1 : S1.ShapeCasts S1x1
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S4096x16_S4096x16_0_0 : ∀ a, (![0, 0] : Fin 2 → Nat) a + S4096x16.size a ≤ S4096x16.size a
  h_S4096x16 : 0 < S4096x16.numel
  reduces_S256x4096_S256 : S256x4096.Reduces [1] S256
  shapeCasts_S256_S256x1 : S256.ShapeCasts S256x1
  broadcasts_S256x1_S256x4096 : S256x1.Broadcasts S256x4096
  inb_S24x4096_S24x4096_0_0 : ∀ a, (![0, 0] : Fin 2 → Nat) a + S24x4096.size a ≤ S24x4096.size a
  h_S24x4096 : 0 < S24x4096.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S256x24 : S1x24.Broadcasts S256x24
  reduces_S256x24_S256 : S256x24.Reduces [1] S256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S256x4096_S16x4096_S256x16_1_1_0_0_n_n_wf : DotDims.WF S256x4096 S16x4096 S256x16 [1] [1] [0] [0] [] []
  dot_S256x16_S4096x16_S256x4096_1_1_0_0_n_n_wf : DotDims.WF S256x16 S4096x16 S256x4096 [1] [1] [0] [0] [] []
  dot_S256x4096_S24x4096_S256x24_1_1_0_0_n_n_wf : DotDims.WF S256x4096 S24x4096 S256x24 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .f32 = 32 ∨ (Rect.block (s := S8192x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x16.size a ≤ S4096x16.size a
  hwx1_4 : ∀ i : grid1.Coords, EltTy.bits .f32 = 32 ∨ (Rect.block (s := S4096x16) S4096x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x4096.size a ≤ S16x4096.size a
  hwx1_5 : ∀ i : grid1.Coords, EltTy.bits .f32 = 32 ∨ (Rect.block (s := S16x4096) S16x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x4096.size a
  hwx1_6 : ∀ i : grid1.Coords, EltTy.bits .f32 = 32 ∨ (Rect.block (s := S1x4096) S1x4096.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x16.size a ≤ S4096x16.size a
  hwx1_7 : ∀ i : grid1.Coords, EltTy.bits .f32 = 32 ∨ (Rect.block (s := S4096x16) S4096x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x4096.size a ≤ S16x4096.size a
  hwx1_8 : ∀ i : grid1.Coords, EltTy.bits .f32 = 32 ∨ (Rect.block (s := S16x4096) S16x4096.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x4096.size a ≤ S1x4096.size a
  hwx1_9 : ∀ i : grid1.Coords, EltTy.bits .f32 = 32 ∨ (Rect.block (s := S1x4096) S1x4096.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S24x4096.size a ≤ S24x4096.size a
  hwx1_10 : ∀ i : grid1.Coords, EltTy.bits .f32 = 32 ∨ (Rect.block (s := S24x4096) S24x4096.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x24.size a ≤ S1x24.size a
  hwx1_11 : ∀ i : grid1.Coords, EltTy.bits .f32 = 32 ∨ (Rect.block (s := S1x24) S1x24.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x24.size a ≤ S1x24.size a
  hwx1_12 : ∀ i : grid1.Coords, EltTy.bits .f32 = 32 ∨ (Rect.block (s := S1x24) S1x24.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x1.size a ≤ S1x1.size a
  hwx1_13 : ∀ i : grid1.Coords, EltTy.bits .f32 = 32 ∨ (Rect.block (s := S1x1) S1x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S256x4096.size a ≤ S8192x4096.size a
  hwx1_14 : ∀ i : grid1.Coords, EltTy.bits .f32 = 32 ∨ (Rect.block (s := S8192x4096) S256x4096.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S256x1.size a ≤ S8192x1.size a
  hwx1_15 : ∀ i : grid1.Coords, EltTy.bits .f32 = 32 ∨ (Rect.block (s := S8192x1) S256x1.size (cc1_transform_15 i) (hinb1_15 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf
def dot_S256x4096_S24x4096_S256x24_1_1_0_0_n_n : DotDims S256x4096 S24x4096 S256x24 where
  lhsContracting := [1]
  rhsContracting := [1]
  lhsNonContracting := [0]
  rhsNonContracting := [0]
  lhsBatch := []
  rhsBatch := []
  wf := dot_S256x4096_S24x4096_S256x24_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x4096.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S4096x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S16x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S4096x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S16x4096.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1x4096.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg8) S24x4096.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v12) S1x24.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg10) S1x24.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v13) S1x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v14_0) S256x4096.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v14_1) S256x1.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x16 : Shape := ⟨2, ![4096, 16]⟩
abbrev S16x4096 : Shape := ⟨2, ![16, 4096]⟩
abbrev S4096 : Shape := ⟨1, ![4096]⟩
abbrev S24x4096 : Shape := ⟨2, ![24, 4096]⟩
abbrev S24 : Shape := ⟨1, ![24]⟩
abbrev S1x24 : Shape := ⟨2, ![1, 24]⟩
abbrev S1 : Shape := ⟨1, ![1]⟩
abbrev S_ : Shape := ⟨0, ![]⟩
abbrev S1x4096 : Shape := ⟨2, ![1, 4096]⟩
abbrev S8192x16 : Shape := ⟨2, ![8192, 16]⟩
abbrev S8192 : Shape := ⟨1, ![8192]⟩
abbrev S8192x1 : Shape := ⟨2, ![8192, 1]⟩
abbrev S4096x24 : Shape := ⟨2, ![4096, 24]⟩
abbrev S8192x24 : Shape := ⟨2, ![8192, 24]⟩
abbrev S24x1 : Shape := ⟨2, ![24, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S4096x16, .f32⟩
  | .hbm, ⟨6, _⟩ => ⟨S16x4096, .f32⟩
  | .hbm, ⟨7, _⟩ => ⟨S4096, .f32⟩
  | .hbm, ⟨8, _⟩ => ⟨S24x4096, .f32⟩
  | .hbm, ⟨9, _⟩ => ⟨S24, .f32⟩
  | .hbm, ⟨10, _⟩ => ⟨S1x24, .f32⟩
  | .hbm, ⟨11, _⟩ => ⟨S1, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S4096x16, .f32⟩
  | .hbm, ⟨37, _⟩ => ⟨S8192x16, .f32⟩
  | .hbm, ⟨38, _⟩ => ⟨S16x4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S4096x16, .f32⟩
  | .hbm, ⟨47, _⟩ => ⟨S8192x16, .f32⟩
  | .hbm, ⟨48, _⟩ => ⟨S16x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x4096, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S8192x1, .f32⟩
  | .hbm, ⟨71, _⟩ => ⟨S8192x4096, .f32⟩
  | .hbm, ⟨72, _⟩ => ⟨S8192x4096, .f32⟩
  | .hbm, ⟨73, _⟩ => ⟨S8192x1, .f32⟩
  | .hbm, ⟨74, _⟩ => ⟨S8192x4096, .f32⟩
  | .hbm, ⟨75, _⟩ => ⟨S8192x4096, .f32⟩
  | .hbm, ⟨76, _⟩ => ⟨S4096x24, .f32⟩
  | .hbm, ⟨77, _⟩ => ⟨S8192x24, .f32⟩
  | .hbm, ⟨78, _⟩ => ⟨S1x24, .f32⟩
  | .hbm, ⟨79, _⟩ => ⟨S8192x24, .f32⟩
  | .hbm, ⟨80, _⟩ => ⟨S8192x24, .f32⟩
  | .hbm, ⟨81, _⟩ => ⟨S_, .f32⟩
  | .hbm, ⟨82, _⟩ => ⟨S8192x24, .f32⟩
  | .hbm, ⟨83, _⟩ => ⟨S8192x24, .f32⟩
  | .hbm, ⟨84, _⟩ => ⟨S24x1, .f32⟩
  | .hbm, ⟨85, _⟩ => ⟨S8192x1, .f32⟩
  | .hbm, ⟨86, _⟩ => ⟨S1x1, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S8192x4096, .f32⟩
  | .hbm, ⟨101, _⟩ => ⟨S8192x4096, .f32⟩
  | .hbm, ⟨102, _⟩ => ⟨S8192x4096, .f32⟩
  | .hbm, ⟨103, _⟩ => ⟨S8192x4096, .f32⟩
  | .hbm, ⟨104, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S16x4096_S4096x16_1_0 : S16x4096.Transposes [1, 0] S4096x16
  transposes_S4096x16_S16x4096_1_0 : S4096x16.Transposes [1, 0] S16x4096
  bcast_S_S8192x4096 : S_.BroadcastsInDim S8192x4096 (![] : Fin 0 → Fin S8192x4096.rank)
  reducesTo_S8192x4096_S8192_d1 : S8192x4096.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  transposes_S24x4096_S4096x24_1_0 : S24x4096.Transposes [1, 0] S4096x24
  bcast_S24_S1x24_1 : S24.BroadcastsInDim S1x24 (![1] : Fin 1 → Fin S1x24.rank)
  bcast_S1x24_S8192x24_0_1 : S1x24.BroadcastsInDim S8192x24 (![0, 1] : Fin 2 → Fin S8192x24.rank)
  bcast_S_S8192x24 : S_.BroadcastsInDim S8192x24 (![] : Fin 0 → Fin S8192x24.rank)
  transposes_S1x24_S24x1_1_0 : S1x24.Transposes [1, 0] S24x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []
  dot_S8192x4096_S4096x24_S8192x24_1_0_0_1_n_n_wf : DotDims.WF S8192x4096 S4096x24 S8192x24 [1] [0] [0] [1] [] []
  dot_S8192x24_S24x1_S8192x1_1_0_0_1_n_n_wf : DotDims.WF S8192x24 S24x1 S8192x1 [1] [0] [0] [1] [] []

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def dot_S8192x4096_S4096x24_S8192x24_1_0_0_1_n_n : DotDims S8192x4096 S4096x24 S8192x24 where
  lhsContracting := [1]
  rhsContracting := [0]
  lhsNonContracting := [0]
  rhsNonContracting := [1]
  lhsBatch := []
  rhsBatch := []
  wf := dot_S8192x4096_S4096x24_S8192x24_1_0_0_1_n_n_wf
def dot_S8192x24_S24x1_S8192x1_1_0_0_1_n_n : DotDims S8192x24 S24x1 S8192x1 where
  lhsContracting := [1]
  rhsContracting := [0]
  lhsNonContracting := [0]
  rhsNonContracting := [1]
  lhsBatch := []
  rhsBatch := []
  wf := dot_S8192x24_S24x1_S8192x1_1_0_0_1_n_n_wf

class Facts : Prop extends Facts₀ where

variable [Facts]
-- ==== Proof.KRun.lean ====
/-
  The idealized kernel's run with its two result arrays named.

  The program is two pipelined regions with a stretch of host operations between them. The generated frame
  certificate follows the buffer contents through the three segments: `W0` at launch, `W1` after the first region (its
  arrays at what the write-backs leave), `W2` after the host stretch, `W3` after the second region. Its statement keeps
  only that the argument arrays end unchanged; the same run also ends with every other unscoped buffer at `W3`, and in
  particular the two result arrays at what the second region's write-backs leave of them, `arrAt 14` and `arrAt 15` of
  that region's proof data. This module states the run with those two named.
-/
import proofs.«163950_j9002251453028_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result array after the run: what the second region's write-backs leave of it. -/
theorem W3_out (c : Dev nD) :
    W3 m ρ c (Proc.devRef .tc main_v14_0) = (dat1 (V2 m ρ) c).arrAt 14 cfg1.N := W3_arr m ρ c 14
/-- The second result array after the run. -/
theorem W3_coeff (c : Dev nD) :
    W3 m ρ c (Proc.devRef .tc main_v14_1) = (dat1 (V2 m ρ) c).arrAt 15 cfg1.N := W3_arr m ρ c 15

set_option backward.isDefEq.respectTransparency.types false in
/-- Every weakly fair execution of the program terminates without a fault, with the two result arrays at what the
    second region leaves of them and the argument arrays as launched. -/
theorem run_arrays : θ_run defs (onTc (τ := τ) (main (F := F))) ⟨m, fun _ => 0, ρ⟩ (fun r => ∀ c : Dev nD,
      r.2.mem ((c.tc : Thread nD τ).loc main_v14_0) = (dat1 (V2 m ρ) c).arrAt 14 cfg1.N
      ∧ r.2.mem ((c.tc : Thread nD τ).loc main_v14_1) = (dat1 (V2 m ρ) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v14_0 (by decide))).trans (W3_out m ρ c),
       (h c _ (mem_uc main_v14_1 (by decide))).trans (W3_coeff m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

end Cert.KernelIdeal.Val

end
-- ==== Proof.Spec.lean ====
/-
  What both programs compute, as extended reals, written once over plain finite index types.

  The data: a batch `g` of 8192 rows of 4096 entries; a second batch `e` of the same size; two low-rank
  layers (`u` of 4096×16, `v` of 16×4096, a bias `b` of 4096 entries each); a small two-layer network on `e`
  (`w1` of 24×4096 with bias `bw1`, then `w2` of 24 entries with bias `bw2`).

  Per column `d`: the mean `μ d` of the column of `g`, and its spread, written in two ways — the sum of the
  squares minus `n · μ · μ`, and the sum of the squared deviations from `μ` — each divided by `n - 1` and rooted.
  Per row: the row is centred and scaled column by column (`x0row`), passed through the two low-rank layers with a
  clamp at zero (`x2row`), rescaled so that its length (plus a small constant) becomes the centred row's length
  (plus the same constant) — again written in two ways, `x · (a / b)` and `(x / b) · a` —, and blended with the
  centred row by a weight in `[0, 1]` that the small network computes from the row of `e` (`coeffRow`).

  Float literals stay the extended reals their binary patterns denote; only `0` is written `0`.
-/
import Idealize.ShloMosaic.PureOps.Ideal
import Idealize.ShloMosaic.Lib.ValueIdx

noncomputable section

namespace Cert.Spec

open Idealize.ShloMosaic Idealize.ShloMosaic.ValueIdx
open scoped BigOperators

/-- The number of rows, `8192`, as the float literal both programs divide and multiply by. -/
abbrev cN : EReal := Ideal.ofBits .f32 0x46000000#32
/-- `8191`, the number of rows less one. -/
abbrev cN1 : EReal := Ideal.ofBits .f32 0x45FFF800#32
/-- The small constant added to the spread's root (the float nearest `1e-7`). -/
abbrev eps7 : EReal := Ideal.ofBits .f32 0x33D6BF95#32
/-- The small constant added to a row's length (the float nearest `1e-8`). -/
abbrev eps8 : EReal := Ideal.ofBits .f32 0x322BCC77#32
/-- The float `1.0`. -/
abbrev one : EReal := Ideal.ofBits .f32 0x3F800000#32

/-! ## What the literals denote -/

/-- The pattern of `+0.0` denotes `0`. -/
theorem ofBits_zero : Ideal.ofBits .f32 0x00000000#32 = 0 := by simp [Ideal.ofBits, Ideal.ieee]
/-- The pattern of `1.0` denotes `1`. -/
theorem one_eq : Ideal.ofBits .f32 0x3F800000#32 = 1 := by
  simp [Ideal.ofBits, Ideal.ieee, -EReal.coe_mul]; norm_num
/-- The pattern of `8192.0` denotes the real `8192`. -/
theorem cN_eq : Ideal.ofBits .f32 0x46000000#32 = ((8192 : ℝ) : EReal) := by
  simp [Ideal.ofBits, Ideal.ieee, -EReal.coe_mul]; norm_num
/-- The pattern of `8191.0` denotes the real `8191`. -/
theorem cN1_eq : Ideal.ofBits .f32 0x45FFF800#32 = ((8191 : ℝ) : EReal) := by
  simp [Ideal.ofBits, Ideal.ieee, -EReal.coe_mul]; norm_num
/-- The small constant added to a row's length is positive. -/
theorem eps8_pos : (0 : EReal) < Ideal.ofBits .f32 0x322BCC77#32 := by
  simp [Ideal.ofBits, Ideal.ieee, -EReal.coe_mul]

/-- A two-dimensional array read by its two coordinates. -/
abbrev curry2 {α : Type} {a b : ℕ} (x : (⟨2, ![a, b]⟩ : Shape).Idx → α) : Fin a → Fin b → α := fun r d => x (ix2 r d)
/-- The one row of a `[1, b]` array. -/
abbrev row0 {α : Type} {b : ℕ} (x : (⟨2, ![1, b]⟩ : Shape).Idx → α) : Fin b → α := fun d => x (ix2 (0 : Fin 1) d)
/-- A one-dimensional array read by its coordinate. -/
abbrev curry1 {α : Type} {a : ℕ} (x : (⟨1, ![a]⟩ : Shape).Idx → α) : Fin a → α := fun d => x (ix1 d)

/-! ## The column statistics -/

section Stats
variable (g : Fin 8192 → Fin 4096 → EReal)

/-- The sum of a column. -/
def colSum (d : Fin 4096) : EReal := ∑ b : Fin 8192, g b d
/-- The sum of the squares of a column. -/
def colSumSq (d : Fin 4096) : EReal := ∑ b : Fin 8192, g b d * g b d
/-- The mean of a column. -/
def mean (d : Fin 4096) : EReal := Ideal.div (colSum g d) cN
/-- The spread of a column as the sum of squares less `n · μ · μ`. -/
def spreadK (d : Fin 4096) : EReal := colSumSq g d - cN * mean g d * mean g d
/-- The spread of a column as the sum of the squared deviations from the mean. -/
def spreadR (d : Fin 4096) : EReal := ∑ b : Fin 8192, (g b d - mean g d) * (g b d - mean g d)
/-- The standard deviation from a spread: divided by `n - 1`, rooted. -/
def stdOf (s : Fin 4096 → EReal) (d : Fin 4096) : EReal := Ideal.sqrt (Ideal.div (s d) cN1)

end Stats

/-! ## One row -/

/-- The row centred by `μ` and scaled by `σ + ε`, column by column. -/
def x0row (grow μ σ : Fin 4096 → EReal) (d : Fin 4096) : EReal := Ideal.div (grow d - μ d) (σ d + eps7)

/-- One low-rank layer: `max ((x · vᵀ) · uᵀ + b, 0)`. -/
def layer (x : Fin 4096 → EReal) (u : Fin 4096 → Fin 16 → EReal) (v : Fin 16 → Fin 4096 → EReal) (b : Fin 4096 → EReal)
    (d : Fin 4096) : EReal :=
  max ((∑ k : Fin 16, (∑ j : Fin 4096, x j * v k j) * u d k) + b d) 0

/-- The centred row through both layers. -/
def x2row (grow μ σ : Fin 4096 → EReal) (u0 : Fin 4096 → Fin 16 → EReal) (v0 : Fin 16 → Fin 4096 → EReal) (b0 : Fin 4096 → EReal)
    (u1 : Fin 4096 → Fin 16 → EReal) (v1 : Fin 16 → Fin 4096 → EReal) (b1 : Fin 4096 → EReal) : Fin 4096 → EReal :=
  layer (layer (x0row grow μ σ) u0 v0 b0) u1 v1 b1

/-- A row's length plus the small constant. -/
def rowNorm (x : Fin 4096 → EReal) : EReal := Ideal.sqrt (∑ d : Fin 4096, x d * x d) + eps8

/-- The blending weight of a row: the logistic function of the small network's output on the row of `e`. -/
def coeffRow (erow : Fin 4096 → EReal) (w1 : Fin 24 → Fin 4096 → EReal) (bw1 : Fin 24 → EReal) (w2 : Fin 24 → EReal)
    (bw2 : EReal) : EReal :=
  Ideal.logistic ((∑ j : Fin 24, max ((∑ d : Fin 4096, erow d * w1 j d) + bw1 j) 0 * w2 j) + bw2)

section Row
variable (grow erow μ σ : Fin 4096 → EReal) (u0 : Fin 4096 → Fin 16 → EReal) (v0 : Fin 16 → Fin 4096 → EReal) (b0 : Fin 4096 → EReal)
  (u1 : Fin 4096 → Fin 16 → EReal) (v1 : Fin 16 → Fin 4096 → EReal) (b1 : Fin 4096 → EReal)
  (w1 : Fin 24 → Fin 4096 → EReal) (bw1 : Fin 24 → EReal) (w2 : Fin 24 → EReal) (bw2 : EReal)

/-- The blended row, the rescaling written `x · (a / b)`. -/
def outKrow (d : Fin 4096) : EReal :=
  (one - coeffRow erow w1 bw1 w2 bw2)
      * (x2row grow μ σ u0 v0 b0 u1 v1 b1 d
          * Ideal.div (rowNorm (x0row grow μ σ)) (rowNorm (x2row grow μ σ u0 v0 b0 u1 v1 b1)))
    + coeffRow erow w1 bw1 w2 bw2 * x0row grow μ σ d

/-- The blended row, the rescaling written `(x / b) · a`. -/
def outRrow (d : Fin 4096) : EReal :=
  (one - coeffRow erow w1 bw1 w2 bw2)
      * (Ideal.div (x2row grow μ σ u0 v0 b0 u1 v1 b1 d) (rowNorm (x2row grow μ σ u0 v0 b0 u1 v1 b1))
          * rowNorm (x0row grow μ σ))
    + coeffRow erow w1 bw1 w2 bw2 * x0row grow μ σ d

end Row

end Cert.Spec

end
-- ==== Proof.KHost.lean ====
/-
  The buffers the second region is entered from, in terms of the launch memory and of what the first region left.

  Between the two regions the host computes, from the two accumulated rows `s` (column sums) and `q` (column sums of
  squares) that the first region wrote: the mean row `s / n`, the row `√((q - (n · mean) · mean) / (n - 1))`, and four
  reshapes of argument vectors into one-row matrices. The argument arrays themselves reach the second region as
  launched. Each of those facts is stated here once, the computed rows read at an index.
-/
import proofs.«163950_j9002251453028_2_alg».proof.Proof.KRun
import proofs.«163950_j9002251453028_2_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx

/-! ## The argument arrays reach the second region as launched -/

section Args
variable {F : FTy → Type} [FloatOps F]
variable (m : (ℓ : Loc nD τ sig) → Buf (Elt F) ℓ) (ρ : Dev nD → PrngReg)

/-- The first region is entered from the launch memory. -/
theorem V0_grad (c : Dev nD) : V0 m ρ c main_arg0 = m ((c.tc : Thread nD τ).loc main_arg0) := rfl

theorem V2_grad (c : Dev nD) : V2 m ρ c main_arg0 = m ((c.tc : Thread nD τ).loc main_arg0) :=
  (A_eq1 (V2 m ρ) c 0).symm.trans (((dat1 (V2 m ρ) c).arrAt_in 0 rfl _).symm.trans ((W3_arr m ρ c 0).symm.trans (W3_main_arg0 m ρ c)))
theorem V2_embed (c : Dev nD) : V2 m ρ c main_arg1 = m ((c.tc : Thread nD τ).loc main_arg1) :=
  (A_eq1 (V2 m ρ) c 1).symm.trans (((dat1 (V2 m ρ) c).arrAt_in 1 rfl _).symm.trans ((W3_arr m ρ c 1).symm.trans (W3_main_arg1 m ρ c)))
theorem V2_u0 (c : Dev nD) : V2 m ρ c main_arg2 = m ((c.tc : Thread nD τ).loc main_arg2) :=
  (A_eq1 (V2 m ρ) c 4).symm.trans (((dat1 (V2 m ρ) c).arrAt_in 4 rfl _).symm.trans ((W3_arr m ρ c 4).symm.trans (W3_main_arg2 m ρ c)))
theorem V2_v0 (c : Dev nD) : V2 m ρ c main_arg3 = m ((c.tc : Thread nD τ).loc main_arg3) :=
  (A_eq1 (V2 m ρ) c 5).symm.trans (((dat1 (V2 m ρ) c).arrAt_in 5 rfl _).symm.trans ((W3_arr m ρ c 5).symm.trans (W3_main_arg3 m ρ c)))
theorem V2_u1 (c : Dev nD) : V2 m ρ c main_arg5 = m ((c.tc : Thread nD τ).loc main_arg5) :=
  (A_eq1 (V2 m ρ) c 7).symm.trans (((dat1 (V2 m ρ) c).arrAt_in 7 rfl _).symm.trans ((W3_arr m ρ c 7).symm.trans (W3_main_arg5 m ρ c)))
theorem V2_v1 (c : Dev nD) : V2 m ρ c main_arg6 = m ((c.tc : Thread nD τ).loc main_arg6) :=
  (A_eq1 (V2 m ρ) c 8).symm.trans (((dat1 (V2 m ρ) c).arrAt_in 8 rfl _).symm.trans ((W3_arr m ρ c 8).symm.trans (W3_main_arg6 m ρ c)))
theorem V2_w1 (c : Dev nD) : V2 m ρ c main_arg8 = m ((c.tc : Thread nD τ).loc main_arg8) :=
  (A_eq1 (V2 m ρ) c 10).symm.trans (((dat1 (V2 m ρ) c).arrAt_in 10 rfl _).symm.trans ((W3_arr m ρ c 10).symm.trans (W3_main_arg8 m ρ c)))
theorem V2_w2 (c : Dev nD) : V2 m ρ c main_arg10 = m ((c.tc : Thread nD τ).loc main_arg10) :=
  (A_eq1 (V2 m ρ) c 12).symm.trans (((dat1 (V2 m ρ) c).arrAt_in 12 rfl _).symm.trans ((W3_arr m ρ c 12).symm.trans (W3_main_arg10 m ρ c)))

end Args

/-! ## The rows the host computes, read at an index -/

section Rows
variable (m : (ℓ : Loc nD τ sig) → Buf (Elt Ideal) ℓ) (ρ : Dev nD → PrngReg)

/-- A scalar literal broadcast to a row reads the literal's value everywhere. -/
theorem bcast_const (b : BitVec 32) (i : S1x4096.Idx) :
    broadcastInDim S1x4096 ![] bcast_S_S1x4096 (constant (F := Ideal) S_ .f32 b) i = Ideal.ofBits .f32 b :=
  (broadcastInDim_apply _ bcast_S_S1x4096 (constant (F := Ideal) S_ .f32 b) i (fun a => a.elim0) (fun a => a.elim0)).trans rfl

/-- A vector reshaped to a one-row matrix reads, at column `d` of its row, the vector at `d`. -/
theorem cast_row {α : Type} {b : ℕ} (x : (⟨1, ![b]⟩ : Shape).Idx → α) (h : (⟨1, ![b]⟩ : Shape).ShapeCasts ⟨2, ![1, b]⟩)
    (u : Fin 1) (d : Fin b) : shapeCast ⟨2, ![1, b]⟩ x h (ix2 u d) = x (ix1 d) :=
  shapeCast_apply x h _ _ (by
    have hu : u.val = 0 := by omega
    rw [Shape.rowMajor_val_two, Shape.rowMajor_val_one]
    show d.val = u.val * b + d.val
    rw [hu, Nat.zero_mul, Nat.zero_add])

/-- The row of column sums the first region leaves. -/
abbrev sRow (c : Dev nD) : S1x4096.Idx → EReal := W1 m ρ c (Proc.devRef .tc main_v0_0)
/-- The row of column sums of squares the first region leaves. -/
abbrev qRow (c : Dev nD) : S1x4096.Idx → EReal := W1 m ρ c (Proc.devRef .tc main_v0_1)

/-- The mean row: the first region's column sums divided by the number of rows. -/
theorem V2_mean_apply (c : Dev nD) (i : S1x4096.Idx) :
    V2 m ρ c main_v2 i = Ideal.div (sRow m ρ c i) Cert.Spec.cN := by
  have e : V2 m ρ c main_v2 = Host.divf (W1 m ρ c (Proc.devRef .tc main_v0_0))
      (broadcastInDim S1x4096 ![] bcast_S_S1x4096 (constant (F := Ideal) S_ .f32 0x46000000#32)) := by
    show StableHlo.after hostOps1 (W1 m ρ c) (Proc.devRef .tc main_v2) = _
    after_results
  rw [e]
  show Ideal.div _ (broadcastInDim S1x4096 ![] bcast_S_S1x4096 (constant (F := Ideal) S_ .f32 0x46000000#32) i) = _
  rw [bcast_const]

/-- The standard-deviation row: `√((q - (n · mean) · mean) / (n - 1))` of the first region's two rows. -/
theorem V2_std_apply (c : Dev nD) (i : S1x4096.Idx) :
    V2 m ρ c main_v9 i = Ideal.sqrt (Ideal.div
      (qRow m ρ c i - Cert.Spec.cN * Ideal.div (sRow m ρ c i) Cert.Spec.cN * Ideal.div (sRow m ρ c i) Cert.Spec.cN)
      Cert.Spec.cN1) := by
  have e : V2 m ρ c main_v9 = Host.sqrt (Host.divf
      (subf (W1 m ρ c (Proc.devRef .tc main_v0_1))
        (mulf (mulf (broadcastInDim S1x4096 ![] bcast_S_S1x4096 (constant (F := Ideal) S_ .f32 0x46000000#32))
            (Host.divf (W1 m ρ c (Proc.devRef .tc main_v0_0))
              (broadcastInDim S1x4096 ![] bcast_S_S1x4096 (constant (F := Ideal) S_ .f32 0x46000000#32))))
          (Host.divf (W1 m ρ c (Proc.devRef .tc main_v0_0))
            (broadcastInDim S1x4096 ![] bcast_S_S1x4096 (constant (F := Ideal) S_ .f32 0x46000000#32)))))
      (broadcastInDim S1x4096 ![] bcast_S_S1x4096 (constant (F := Ideal) S_ .f32 0x45FFF800#32))) := by
    show StableHlo.after hostOps1 (W1 m ρ c) (Proc.devRef .tc main_v9) = _
    after_results
  rw [e]
  show Ideal.sqrt (Ideal.div
      (qRow m ρ c i
        - broadcastInDim S1x4096 ![] bcast_S_S1x4096 (constant (F := Ideal) S_ .f32 0x46000000#32) i
            * Ideal.div (sRow m ρ c i)
                (broadcastInDim S1x4096 ![] bcast_S_S1x4096 (constant (F := Ideal) S_ .f32 0x46000000#32) i)
            * Ideal.div (sRow m ρ c i)
                (broadcastInDim S1x4096 ![] bcast_S_S1x4096 (constant (F := Ideal) S_ .f32 0x46000000#32) i))
      (broadcastInDim S1x4096 ![] bcast_S_S1x4096 (constant (F := Ideal) S_ .f32 0x45FFF800#32) i)) = _
  rw [bcast_const, bcast_const]

/-- An argument vector no region of the first call touches is, after that region, as launched. -/
theorem W1_arg4 (c : Dev nD) : W1 m ρ c (Proc.devRef .tc main_arg4) = m ((c.tc : Thread nD τ).loc main_arg4) :=
  W1_of_ne m ρ c main_arg4 (by decide)
theorem W1_arg7 (c : Dev nD) : W1 m ρ c (Proc.devRef .tc main_arg7) = m ((c.tc : Thread nD τ).loc main_arg7) :=
  W1_of_ne m ρ c main_arg7 (by decide)
theorem W1_arg9 (c : Dev nD) : W1 m ρ c (Proc.devRef .tc main_arg9) = m ((c.tc : Thread nD τ).loc main_arg9) :=
  W1_of_ne m ρ c main_arg9 (by decide)
theorem W1_arg11 (c : Dev nD) : W1 m ρ c (Proc.devRef .tc main_arg11) = m ((c.tc : Thread nD τ).loc main_arg11) :=
  W1_of_ne m ρ c main_arg11 (by decide)

/-- The first layer's bias as a one-row matrix. -/
theorem V2_b0_apply (c : Dev nD) (d : Fin 4096) :
    V2 m ρ c main_v10 (ix2 (0 : Fin 1) d) = m ((c.tc : Thread nD τ).loc main_arg4) (ix1 d) := by
  have e : V2 m ρ c main_v10 = shapeCast S1x4096 (W1 m ρ c (Proc.devRef .tc main_arg4)) shapeCasts_S4096_S1x4096 := by
    show StableHlo.after hostOps1 (W1 m ρ c) (Proc.devRef .tc main_v10) = _
    after_results; rfl
  rw [e, W1_arg4]
  exact cast_row _ _ _ _

/-- The second layer's bias as a one-row matrix. -/
theorem V2_b1_apply (c : Dev nD) (d : Fin 4096) :
    V2 m ρ c main_v11 (ix2 (0 : Fin 1) d) = m ((c.tc : Thread nD τ).loc main_arg7) (ix1 d) := by
  have e : V2 m ρ c main_v11 = shapeCast S1x4096 (W1 m ρ c (Proc.devRef .tc main_arg7)) shapeCasts_S4096_S1x4096 := by
    show StableHlo.after hostOps1 (W1 m ρ c) (Proc.devRef .tc main_v11) = _
    after_results; rfl
  rw [e, W1_arg7]
  exact cast_row _ _ _ _

/-- The small network's first bias as a one-row matrix. -/
theorem V2_bw1_apply (c : Dev nD) (j : Fin 24) :
    V2 m ρ c main_v12 (ix2 (0 : Fin 1) j) = m ((c.tc : Thread nD τ).loc main_arg9) (ix1 j) := by
  have e : V2 m ρ c main_v12 = shapeCast S1x24 (W1 m ρ c (Proc.devRef .tc main_arg9)) shapeCasts_S24_S1x24 := by
    show StableHlo.after hostOps1 (W1 m ρ c) (Proc.devRef .tc main_v12) = _
    after_results; rfl
  rw [e, W1_arg9]
  exact cast_row _ _ _ _

/-- The small network's last bias as a one-by-one matrix. -/
theorem V2_bw2_apply (c : Dev nD) :
    V2 m ρ c main_v13 (ix2 (0 : Fin 1) (0 : Fin 1)) = m ((c.tc : Thread nD τ).loc main_arg11) (ix1 (0 : Fin 1)) := by
  have e : V2 m ρ c main_v13 = shapeCast S1x1 (W1 m ρ c (Proc.devRef .tc main_arg11)) shapeCasts_S1_S1x1 := by
    show StableHlo.after hostOps1 (W1 m ρ c) (Proc.devRef .tc main_v13) = _
    after_results; rfl
  rw [e, W1_arg11]
  exact cast_row _ _ _ _

end Rows

end Cert.KernelIdeal.Val

end
-- ==== Proof.LibRowReads.lean ====
/-
  Reading the layout operations, the row reductions and the matrix products of the kernel at an index, over
  the extended reals, with every index written by its coordinates.
-/
import Idealize.ShloMosaic.Lib.ValueIdx
import Idealize.ShloMosaic.Lib.ValueLayout
import Idealize.ShloMosaic.Lib.Pipeline.Value
import Idealize.ShloMosaic.PureOps.Ideal.Laws

namespace Cert.ValLib

open Idealize.ShloMosaic Idealize.ShloMosaic.ValueIdx

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Row reductions -/

/-- The index of the source over row p with the column q put back. -/
theorem lift_row {a b : ℕ} (h : Shape.Reduces ⟨2, ![a, b]⟩ [1] ⟨1, ![a]⟩) (p : Fin a) (q : Fin b) :
    h.lift (ix1 p) q = ix2 p q := by
  funext c; apply Fin.ext
  match c with
  | ⟨0, _⟩ => rfl
  | ⟨1, _⟩ => rfl

/-- The sum along the rows, read at a row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ q : Fin b, src (ix2 p q) := by
  refine (Ideal.multiReduction_add_single src 0x00000000#32 h hφ hacc (ix1 p)).trans ?_
  exact Finset.sum_congr rfl fun q _ => congrArg src (lift_row h p q)

/-- The maximum along the rows, read at a row: the fold of max from the accumulator's value. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun q => src (ix2 p q)) := by
  refine (Ideal.multiReduction_maximumf_single src 0xFF800000#32 h hφ hacc (ix1 p)).trans ?_
  refine Finset.fold_congr fun q _ => ?_
  exact congrArg src (lift_row h p q)

/-! ## A matrix product -/

/-- The product of an m×k by a k×n matrix into the zero accumulator, read at an index, is the sum over the
contracted coordinate of the products of the entries. -/
theorem matmul2_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (F := Ideal) (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Extended reals -/

/-- A finite sum of reals, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- The fold of max from ⊥ over a nonempty family of reals is the real supremum. -/
theorem fold_max_bot_coe {n : ℕ} [NeZero n] (f : Fin n → ℝ) :
    (Finset.univ : Finset (Fin n)).fold max (⊥ : EReal) (fun q => ((f q : ℝ) : EReal))
      = ((Finset.univ.sup' Finset.univ_nonempty f : ℝ) : EReal) := by
  apply le_antisymm
  · rw [Finset.fold_max_le]
    exact ⟨bot_le, fun q _ => EReal.coe_le_coe_iff.2 (Finset.le_sup' f (Finset.mem_univ q))⟩
  · obtain ⟨q, _, hq⟩ := Finset.exists_mem_eq_sup' Finset.univ_nonempty f
    rw [Finset.le_fold_max]
    exact Or.inr ⟨q, Finset.mem_univ q, by rw [hq]⟩

end Cert.ValLib
-- ==== Proof.LibDotTransposed.lean ====
/-
  A matrix product whose right operand is given row by row: for dimension numbers contracting the left operand's
  axis 1 with the right operand's axis 1 (no batch axis), the product of an m×k matrix `A` and an n×k matrix `B` into a
  zero accumulator is, at `(a, b)`, the sum over the shared coordinate `c` of `A (a, c) * B (b, c)` — that is `A · Bᵀ`. Any
  extents and element types, at the exact extended-real reading of floats.
-/
import Idealize.ShloMosaic.Lib.ValueIdx
import Idealize.ShloMosaic.PureOps.Ideal.Laws

noncomputable section

namespace Cert.DotTransposed

open Idealize.ShloMosaic Idealize.ShloMosaic.ValueIdx
open scoped BigOperators

/-- The product of an m×k matrix by the transpose of an n×k matrix into the zero accumulator, read at an index, is
the sum over the shared coordinate of the products of the entries. -/
theorem matmulT_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (F := Ideal) (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotTransposed

end
-- ==== Proof.MainBody.lean ====
/-
  The main pass's body read at an index: what the body leaves in its two output blocks, at a row `p` and a
  column `q`, is the specification's blended row and blending weight of the rows it was given.
-/
import proofs.«163950_j9002251453028_2_alg».proof.Proof.Spec
import proofs.«163950_j9002251453028_2_alg».proof.Proof.LibRowReads
import proofs.«163950_j9002251453028_2_alg».proof.Proof.LibDotTransposed
import proofs.«163950_j9002251453028_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MainBody

open Cert.KernelIdeal Cert.KernelIdeal.Gen Cert.Spec Cert.ValLib Cert.DotTransposed
open Idealize.ShloMosaic Idealize.ShloMosaic.ValueIdx
open scoped BigOperators

/-! ## The three products of the body -/

/-- A row of the batch against the rows of the small network's first weight. -/
theorem mm24_apply (A : FVec Ideal S256x4096 .bf16) (B : FVec Ideal S24x4096 .bf16) (p : Fin 256) (j : Fin 24) :
    matmul (F := Ideal) dot_S256x4096_S24x4096_S256x24_1_1_0_0_n_n none A B
        (constant (F := Ideal) S256x24 .f32 0x00000000#32) (ix2 p j)
      = ∑ d : Fin 4096, A (ix2 p d) * B (ix2 j d) :=
  matmulT_apply _ none A B p j

/-- A row against the rows of a layer's inner weight. -/
theorem mm16_apply (A : FVec Ideal S256x4096 .bf16) (B : FVec Ideal S16x4096 .bf16) (p : Fin 256) (k : Fin 16) :
    matmul (F := Ideal) dot_S256x4096_S16x4096_S256x16_1_1_0_0_n_n none A B
        (constant (F := Ideal) S256x16 .f32 0x00000000#32) (ix2 p k)
      = ∑ d : Fin 4096, A (ix2 p d) * B (ix2 k d) :=
  matmulT_apply _ none A B p k

/-- A row of sixteen against the rows of a layer's outer weight. -/
theorem mm4096_apply (A : FVec Ideal S256x16 .bf16) (B : FVec Ideal S4096x16 .bf16) (p : Fin 256) (q : Fin 4096) :
    matmul (F := Ideal) dot_S256x16_S4096x16_S256x4096_1_1_0_0_n_n none A B
        (constant (F := Ideal) S256x4096 .f32 0x00000000#32) (ix2 p q)
      = ∑ k : Fin 16, A (ix2 p k) * B (ix2 q k) :=
  matmulT_apply _ none A B p q

/-! ## The centred and scaled rows -/

/-- The centred and scaled block at a row and column. -/
theorem pay2_apply (v0 : Vec Ideal S256x4096 .f32) (v1 v3 : Vec Ideal S1x4096 .f32) (p : Fin 256) (q : Fin 4096) :
    k1_pay2 (F := Ideal) v0 v1 v3 (ix2 p q) = x0row (curry2 v0 p) (row0 v1) (row0 v3) q := by
  unfold k1_pay2 x0row
  show Ideal.div (v0 (ix2 p q) - broadcastTo S256x4096 _ _ (ix2 p q)) (broadcastTo S256x4096 _ _ (ix2 p q)) = _
  rw [broadcastTo_1b_ab_apply, broadcastTo_1b_ab_apply, shapeCast_self, shapeCast_self]
  rfl

/-! ## The two low-rank layers -/

/-- The second layer's product, before its bias and clamp, at a row and column. -/
theorem pay3_apply (v0 : Vec Ideal S256x4096 .f32) (v1 v3 : Vec Ideal S1x4096 .f32) (v12 : Vec Ideal S16x4096 .f32)
    (v16 : Vec Ideal S4096x16 .f32) (v19 : Vec Ideal S1x4096 .f32) (v26 : Vec Ideal S16x4096 .f32)
    (v30 : Vec Ideal S4096x16 .f32) (p : Fin 256) (q : Fin 4096) :
    k1_pay3 (F := Ideal) v0 v1 v3 v12 v16 v19 v26 v30 (ix2 p q)
      = ∑ k : Fin 16, (∑ j : Fin 4096,
          layer (x0row (curry2 v0 p) (row0 v1) (row0 v3)) (curry2 v16) (curry2 v12) (row0 v19) j * v26 (ix2 k j))
            * v30 (ix2 q k) := by
  unfold k1_pay3
  show matmul (F := Ideal) _ none _ _ _ (ix2 p q) = _
  rw [mm4096_apply]
  refine Finset.sum_congr rfl fun k _ => congrArg (· * _) ?_
  rw [truncf_apply, mm16_apply]
  refine Finset.sum_congr rfl fun j _ => congrArg (· * _) ?_
  rw [truncf_apply]
  show max (matmul (F := Ideal) _ none _ _ _ (ix2 p j) + broadcastTo S256x4096 _ _ (ix2 p j)) (Ideal.ofBits .f32 0x00000000#32) = _
  rw [mm4096_apply, broadcastTo_1b_ab_apply, shapeCast_self, ofBits_zero]
  unfold layer
  refine congrArg (max · 0) (congrArg (· + _) (Finset.sum_congr rfl fun k' _ => congrArg (· * _) ?_))
  rw [truncf_apply, mm16_apply]
  refine Finset.sum_congr rfl fun j' _ => congrArg (· * _) ?_
  exact pay2_apply v0 v1 v3 p j'

/-! ## The rescaling and the blend -/

/-- The clamped second layer, rescaled to the centred row's length, at a row and column: `x` is the clamped row
and `a` the centred row. -/
theorem pay5_apply (v10 v32 : FVec Ideal S256x4096 .f32) (v34 : FVec Ideal S1x4096 .f32) (p : Fin 256)
    (a x : Fin 4096 → EReal) (ha : ∀ d, v10 (ix2 p d) = a d)
    (hx : ∀ d, max (v32 (ix2 p d) + v34 (ix2 (0 : Fin 1) d)) 0 = x d) (q : Fin 4096) :
    k1_pay5 (F := Ideal) v10 v32 v34 (ix2 p q) = x q * Ideal.div (rowNorm a) (rowNorm x) := by
  unfold k1_pay5
  show max (v32 (ix2 p q) + broadcastTo S256x4096 v34 _ (ix2 p q)) (Ideal.ofBits .f32 0x00000000#32)
      * broadcastTo S256x4096 _ _ (ix2 p q) = _
  rw [broadcastTo_a1_ab_apply, broadcastTo_1b_ab_apply, ofBits_zero, hx q]
  refine congrArg (x q * ·) ?_
  show Ideal.div (Ideal.sqrt (shapeCast S256x1 _ _ (ix2 p (0 : Fin 1))) + eps8)
      (Ideal.sqrt (shapeCast S256x1 _ _ (ix2 p (0 : Fin 1))) + eps8) = _
  rw [shapeCast_a_a1_apply, shapeCast_a_a1_apply, rowSum_apply, rowSum_apply]
  unfold rowNorm
  refine congrArg₂ (fun s t => Ideal.div (Ideal.sqrt s + eps8) (Ideal.sqrt t + eps8)) ?_ ?_
  · exact Finset.sum_congr rfl fun d _ => by rw [← ha d]; rfl
  · refine Finset.sum_congr rfl fun d _ => ?_
    rw [← hx d]
    show max (v32 (ix2 p d) + broadcastTo S256x4096 v34 _ (ix2 p d)) (Ideal.ofBits .f32 0x00000000#32)
        * max (v32 (ix2 p d) + broadcastTo S256x4096 v34 _ (ix2 p d)) (Ideal.ofBits .f32 0x00000000#32) = _
    rw [broadcastTo_1b_ab_apply, ofBits_zero]

/-- The blend of the rescaled row and the centred row by the weight's column, at a row and column. -/
theorem pay1_apply (v10 v53 : FVec Ideal S256x4096 .f32) (v74 v75 : FVec Ideal S256x1 .f32) (p : Fin 256) (q : Fin 4096) :
    k1_pay1 (F := Ideal) v10 v53 v74 v75 (ix2 p q)
      = (v75 (ix2 p (0 : Fin 1)) - v74 (ix2 p (0 : Fin 1))) * v53 (ix2 p q) + v74 (ix2 p (0 : Fin 1)) * v10 (ix2 p q) := by
  unfold k1_pay1
  show broadcastTo S256x4096 _ _ (ix2 p q) * v53 (ix2 p q) + broadcastTo S256x4096 _ _ (ix2 p q) * v10 (ix2 p q) = _
  rw [broadcastTo_a1_ab_apply, broadcastTo_a1_ab_apply]
  rfl

/-! ## The blending weight -/

/-- The weight's column at a row is the specification's weight of that row. -/
theorem pay6_apply (v54 : Vec Ideal S256x4096 .f32) (v56 : Vec Ideal S24x4096 .f32) (v59 v65 : Vec Ideal S1x24 .f32)
    (v70 : Vec Ideal S1x1 .f32) (p : Fin 256) :
    k1_pay6 (F := Ideal) v54 v56 v59 v65 v70 (ix2 p (0 : Fin 1))
      = coeffRow (curry2 v54 p) (curry2 v56) (row0 v59) (row0 v65) (v70 (ix2 (0 : Fin 1) (0 : Fin 1))) := by
  unfold k1_pay6 coeffRow
  show Ideal.logistic (shapeCast S256x1 _ _ (ix2 p (0 : Fin 1)) + broadcastTo S256x1 _ _ (ix2 p (0 : Fin 1))) = _
  rw [shapeCast_a_a1_apply, rowSum_apply, broadcastTo_1b_ab_apply, shapeCast_self, shapeCast_self]
  refine congrArg Ideal.logistic (congrArg (· + _) (Finset.sum_congr rfl fun j _ => ?_))
  show max (matmul _ _ _ _ _ (ix2 p j) + broadcastTo S256x24 _ _ (ix2 p j)) (Ideal.ofBits .f32 0x00000000#32)
      * broadcastTo S256x24 _ _ (ix2 p j) = _
  rw [mm24_apply, broadcastTo_1b_ab_apply, broadcastTo_1b_ab_apply, ofBits_zero]
  rfl

/-! ## The two outputs' blocks -/

theorem hz : (![0, 0] : Fin 2 → Nat) = fun _ => 0 := funext fun a => by fin_cases a <;> rfl

section Outputs
variable (x0 x1 : Vec Ideal S256x4096 .f32) (x2 x3 : Vec Ideal S1x4096 .f32) (x4 : Vec Ideal S4096x16 .f32)
  (x5 : Vec Ideal S16x4096 .f32) (x6 : Vec Ideal S1x4096 .f32) (x7 : Vec Ideal S4096x16 .f32) (x8 : Vec Ideal S16x4096 .f32)
  (x9 : Vec Ideal S1x4096 .f32) (x10 : Vec Ideal S24x4096 .f32) (x11 x12 : Vec Ideal S1x24 .f32) (x13 : Vec Ideal S1x1 .f32)

/-- The weight's block after the body, at a row. -/
theorem out1_15_apply (p : Fin 256) :
    Gen.out1_15 (F := Ideal) x0 x1 x2 x3 x4 x5 x6 x7 x8 x9 x10 x11 x12 x13 (ix2 p (0 : Fin 1))
      = coeffRow (curry2 x1 p) (curry2 x10) (row0 x11) (row0 x12) (x13 (ix2 (0 : Fin 1) (0 : Fin 1))) := by
  unfold Gen.out1_15
  rw [View.canon_unit_zero hz]
  simp only [View.ld_unit_zero (S := S256x4096) hz, View.ld_unit_zero (S := S24x4096) hz,
    View.ld_unit_zero (S := S1x24) hz, View.ld_unit_zero (S := S1x1) hz]
  exact pay6_apply x1 x10 x11 x12 x13 p

/-- The clamped second layer of a row, from the block of its product and the bias row. -/
theorem x2_apply (p : Fin 256) (d : Fin 4096) :
    max (k1_pay3 (F := Ideal) x0 x2 x3 x5 x4 x6 x8 x7 (ix2 p d) + k1_pay4 (F := Ideal) x9 (ix2 (0 : Fin 1) d)) 0
      = x2row (curry2 x0 p) (row0 x2) (row0 x3) (curry2 x4) (curry2 x5) (row0 x6) (curry2 x7) (curry2 x8) (row0 x9) d := by
  rw [pay3_apply]
  unfold k1_pay4
  rw [shapeCast_self]
  rfl

/-- The blended block after the body, at a row and column. -/
theorem out1_14_apply (p : Fin 256) (q : Fin 4096) :
    Gen.out1_14 (F := Ideal) x0 x1 x2 x3 x4 x5 x6 x7 x8 x9 x10 x11 x12 x13 (ix2 p q)
      = outKrow (curry2 x0 p) (curry2 x1 p) (row0 x2) (row0 x3) (curry2 x4) (curry2 x5) (row0 x6)
          (curry2 x7) (curry2 x8) (row0 x9) (curry2 x10) (row0 x11) (row0 x12) (x13 (ix2 (0 : Fin 1) (0 : Fin 1))) q := by
  unfold Gen.out1_14
  rw [View.canon_unit_zero hz]
  simp only [View.ld_unit_zero (S := S256x4096) hz, View.ld_unit_zero (S := S1x4096) hz,
    View.ld_unit_zero (S := S16x4096) hz, View.ld_unit_zero (S := S4096x16) hz, View.ld_unit_zero (S := S24x4096) hz,
    View.ld_unit_zero (S := S1x24) hz, View.ld_unit_zero (S := S1x1) hz]
  refine (pay1_apply _ _ _ _ p q).trans ?_
  rw [pay5_apply _ _ _ p _ _ (fun d => pay2_apply x0 x2 x3 p d) (fun d => x2_apply x0 x2 x3 x4 x5 x6 x7 x8 x9 p d) q,
    pay6_apply, pay2_apply]
  rfl

end Outputs

end Cert.KernelIdeal.MainBody

end
-- ==== Proof.MainBlocks.lean ====
/-
  The blocks of the main pass as plain index facts.

  The main pass runs over 32 points. At point `t` the two row-blocked operands are read at rows
  `256·t … 256·t + 255`, the twelve resident operands are read whole (their block index is `(0, 0)` at every
  point and the block is the whole array), and the two results are written at rows `256·t … 256·t + 255`.
  A block's coordinate in its array is always the block index times the block's size plus the coordinate inside
  the block; the block indices are decided once over the 32 points.
-/
import proofs.«163950_j9002251453028_2_alg».proof.Proof.Gen.KernelIdeal.Frame
import Idealize.ShloMosaic.Lib.Pipeline.Value
import Idealize.ShloMosaic.Lib.ValueIdx

noncomputable section

namespace Cert.KernelIdeal.MainBlocks

open Cert.KernelIdeal Cert.KernelIdeal.Gen Idealize.ShloMosaic Idealize.ShloMosaic.TcCoe Idealize.ShloMosaic.ValueIdx

variable {F : FTy → Type} [FloatOps F]
variable (V : (c : Dev nD) → (b : Ref sig .tc) → Buf (Elt F) ((c : Thread nD τ).loc b))

/-- Row `256·t + p` of the array, for `p` inside the block of point `t`. -/
def rowOf (t : Fin cfg1.N) (p : Fin 256) : Fin 8192 :=
  ⟨256 * t.val + p.val, by have := t.isLt; have hN : cfg1.N = 32 := N_1; have := p.isLt; omega⟩

/-! ## The block indices, decided once over the 32 points -/

/-- The row-blocked windows (the two operands read by rows, the two results): the row index is the point, the
    column index is zero. -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_14.index t (0 : Fin 2) = t.val ∧ win1_14.index t (1 : Fin 2) = 0
    ∧ win1_15.index t (0 : Fin 2) = t.val ∧ win1_15.index t (1 : Fin 2) = 0 :=
  (by decide +kernel : ∀ t : Fin grid1.N, _)
/-- Window 2 (the column means) sits at block `(0, 0)` at every point. -/
theorem idx_res2 : ∀ t : Fin cfg1.N, win1_2.index t (0 : Fin 2) = 0 ∧ win1_2.index t (1 : Fin 2) = 0 :=
  (by decide +kernel : ∀ t : Fin grid1.N, _)
/-- Window 3 (the column deviations) sits at block `(0, 0)` at every point. -/
theorem idx_res3 : ∀ t : Fin cfg1.N, win1_3.index t (0 : Fin 2) = 0 ∧ win1_3.index t (1 : Fin 2) = 0 :=
  (by decide +kernel : ∀ t : Fin grid1.N, _)
/-- Window 4 (the first layer's left factor) sits at block `(0, 0)` at every point. -/
theorem idx_res4 : ∀ t : Fin cfg1.N, win1_4.index t (0 : Fin 2) = 0 ∧ win1_4.index t (1 : Fin 2) = 0 :=
  (by decide +kernel : ∀ t : Fin grid1.N, _)
/-- Window 5 (the first layer's right factor) sits at block `(0, 0)` at every point. -/
theorem idx_res5 : ∀ t : Fin cfg1.N, win1_5.index t (0 : Fin 2) = 0 ∧ win1_5.index t (1 : Fin 2) = 0 :=
  (by decide +kernel : ∀ t : Fin grid1.N, _)
/-- Window 6 (the first layer's bias) sits at block `(0, 0)` at every point. -/
theorem idx_res6 : ∀ t : Fin cfg1.N, win1_6.index t (0 : Fin 2) = 0 ∧ win1_6.index t (1 : Fin 2) = 0 :=
  (by decide +kernel : ∀ t : Fin grid1.N, _)
/-- Window 7 (the second layer's left factor) sits at block `(0, 0)` at every point. -/
theorem idx_res7 : ∀ t : Fin cfg1.N, win1_7.index t (0 : Fin 2) = 0 ∧ win1_7.index t (1 : Fin 2) = 0 :=
  (by decide +kernel : ∀ t : Fin grid1.N, _)
/-- Window 8 (the second layer's right factor) sits at block `(0, 0)` at every point. -/
theorem idx_res8 : ∀ t : Fin cfg1.N, win1_8.index t (0 : Fin 2) = 0 ∧ win1_8.index t (1 : Fin 2) = 0 :=
  (by decide +kernel : ∀ t : Fin grid1.N, _)
/-- Window 9 (the second layer's bias) sits at block `(0, 0)` at every point. -/
theorem idx_res9 : ∀ t : Fin cfg1.N, win1_9.index t (0 : Fin 2) = 0 ∧ win1_9.index t (1 : Fin 2) = 0 :=
  (by decide +kernel : ∀ t : Fin grid1.N, _)
/-- Window 10 (the small network's first weights) sits at block `(0, 0)` at every point. -/
theorem idx_res10 : ∀ t : Fin cfg1.N, win1_10.index t (0 : Fin 2) = 0 ∧ win1_10.index t (1 : Fin 2) = 0 :=
  (by decide +kernel : ∀ t : Fin grid1.N, _)
/-- Window 11 (the small network's first bias) sits at block `(0, 0)` at every point. -/
theorem idx_res11 : ∀ t : Fin cfg1.N, win1_11.index t (0 : Fin 2) = 0 ∧ win1_11.index t (1 : Fin 2) = 0 :=
  (by decide +kernel : ∀ t : Fin grid1.N, _)
/-- Window 12 (the small network's second weights) sits at block `(0, 0)` at every point. -/
theorem idx_res12 : ∀ t : Fin cfg1.N, win1_12.index t (0 : Fin 2) = 0 ∧ win1_12.index t (1 : Fin 2) = 0 :=
  (by decide +kernel : ∀ t : Fin grid1.N, _)
/-- Window 13 (the small network's second bias) sits at block `(0, 0)` at every point. -/
theorem idx_res13 : ∀ t : Fin cfg1.N, win1_13.index t (0 : Fin 2) = 0 ∧ win1_13.index t (1 : Fin 2) = 0 :=
  (by decide +kernel : ∀ t : Fin grid1.N, _)

/-! ## The row-blocked operands -/

/-- The first operand's block at point `t` reads rows `256·t + p` of its array. -/
theorem iblk_grad (c : Dev nD) (t : Fin cfg1.N) (p : Fin 256) (d : Fin 4096) :
    (Gen.iblk1 V c 0 t : S256x4096.Idx → Elt F .f32) (ix2 p d)
      = (V c main_arg0 : S8192x4096.Idx → Elt F .f32) (ix2 (rowOf t p) d) := by
  obtain ⟨e0, e1, -⟩ := idx_rows t
  unfold Gen.iblk1
  rw [View.read_apply]
  show V c main_arg0 _ = V c main_arg0 _
  congr 1
  funext a
  apply Fin.ext
  match a with
  | ⟨0, _⟩ => show win1_0.index t (0 : Fin 2) * 256 + 1 * p.val = 256 * t.val + p.val; omega
  | ⟨1, _⟩ => show win1_0.index t (1 : Fin 2) * 4096 + 1 * d.val = d.val; omega

/-- The second operand's block at point `t` reads rows `256·t + p` of its array. -/
theorem iblk_embed (c : Dev nD) (t : Fin cfg1.N) (p : Fin 256) (d : Fin 4096) :
    (Gen.iblk1 V c 1 t : S256x4096.Idx → Elt F .f32) (ix2 p d)
      = (V c main_arg1 : S8192x4096.Idx → Elt F .f32) (ix2 (rowOf t p) d) := by
  obtain ⟨-, -, e0, e1, -⟩ := idx_rows t
  unfold Gen.iblk1
  rw [View.read_apply]
  show V c main_arg1 _ = V c main_arg1 _
  congr 1
  funext a
  apply Fin.ext
  match a with
  | ⟨0, _⟩ => show win1_1.index t (0 : Fin 2) * 256 + 1 * p.val = 256 * t.val + p.val; omega
  | ⟨1, _⟩ => show win1_1.index t (1 : Fin 2) * 4096 + 1 * d.val = d.val; omega

/-! ## The resident operands: the block is the whole array -/

/-- Window 2 (the column means) reads its whole array at every point. -/
theorem iblk_mean (c : Dev nD) (t : Fin cfg1.N) (i : S1x4096.Idx) :
    (Gen.iblk1 V c 2 t : S1x4096.Idx → Elt F .f32) i = (V c main_v2 : S1x4096.Idx → Elt F .f32) i := by
  obtain ⟨e0, e1⟩ := idx_res2 t
  unfold Gen.iblk1
  rw [View.read_apply]
  show V c main_v2 _ = V c main_v2 _
  congr 1
  funext a
  apply Fin.ext
  match a with
  | ⟨0, _⟩ => show win1_2.index t (0 : Fin 2) * 1 + 1 * (i 0).val = (i 0).val; omega
  | ⟨1, _⟩ => show win1_2.index t (1 : Fin 2) * 4096 + 1 * (i 1).val = (i 1).val; omega

/-- Window 3 (the column deviations) reads its whole array at every point. -/
theorem iblk_std (c : Dev nD) (t : Fin cfg1.N) (i : S1x4096.Idx) :
    (Gen.iblk1 V c 3 t : S1x4096.Idx → Elt F .f32) i = (V c main_v9 : S1x4096.Idx → Elt F .f32) i := by
  obtain ⟨e0, e1⟩ := idx_res3 t
  unfold Gen.iblk1
  rw [View.read_apply]
  show V c main_v9 _ = V c main_v9 _
  congr 1
  funext a
  apply Fin.ext
  match a with
  | ⟨0, _⟩ => show win1_3.index t (0 : Fin 2) * 1 + 1 * (i 0).val = (i 0).val; omega
  | ⟨1, _⟩ => show win1_3.index t (1 : Fin 2) * 4096 + 1 * (i 1).val = (i 1).val; omega

/-- Window 4 (the first layer's left factor) reads its whole array at every point. -/
theorem iblk_u0 (c : Dev nD) (t : Fin cfg1.N) (i : S4096x16.Idx) :
    (Gen.iblk1 V c 4 t : S4096x16.Idx → Elt F .f32) i = (V c main_arg2 : S4096x16.Idx → Elt F .f32) i := by
  obtain ⟨e0, e1⟩ := idx_res4 t
  unfold Gen.iblk1
  rw [View.read_apply]
  show V c main_arg2 _ = V c main_arg2 _
  congr 1
  funext a
  apply Fin.ext
  match a with
  | ⟨0, _⟩ => show win1_4.index t (0 : Fin 2) * 4096 + 1 * (i 0).val = (i 0).val; omega
  | ⟨1, _⟩ => show win1_4.index t (1 : Fin 2) * 16 + 1 * (i 1).val = (i 1).val; omega

/-- Window 5 (the first layer's right factor) reads its whole array at every point. -/
theorem iblk_v0 (c : Dev nD) (t : Fin cfg1.N) (i : S16x4096.Idx) :
    (Gen.iblk1 V c 5 t : S16x4096.Idx → Elt F .f32) i = (V c main_arg3 : S16x4096.Idx → Elt F .f32) i := by
  obtain ⟨e0, e1⟩ := idx_res5 t
  unfold Gen.iblk1
  rw [View.read_apply]
  show V c main_arg3 _ = V c main_arg3 _
  congr 1
  funext a
  apply Fin.ext
  match a with
  | ⟨0, _⟩ => show win1_5.index t (0 : Fin 2) * 16 + 1 * (i 0).val = (i 0).val; omega
  | ⟨1, _⟩ => show win1_5.index t (1 : Fin 2) * 4096 + 1 * (i 1).val = (i 1).val; omega

/-- Window 6 (the first layer's bias) reads its whole array at every point. -/
theorem iblk_b0 (c : Dev nD) (t : Fin cfg1.N) (i : S1x4096.Idx) :
    (Gen.iblk1 V c 6 t : S1x4096.Idx → Elt F .f32) i = (V c main_v10 : S1x4096.Idx → Elt F .f32) i := by
  obtain ⟨e0, e1⟩ := idx_res6 t
  unfold Gen.iblk1
  rw [View.read_apply]
  show V c main_v10 _ = V c main_v10 _
  congr 1
  funext a
  apply Fin.ext
  match a with
  | ⟨0, _⟩ => show win1_6.index t (0 : Fin 2) * 1 + 1 * (i 0).val = (i 0).val; omega
  | ⟨1, _⟩ => show win1_6.index t (1 : Fin 2) * 4096 + 1 * (i 1).val = (i 1).val; omega

/-- Window 7 (the second layer's left factor) reads its whole array at every point. -/
theorem iblk_u1 (c : Dev nD) (t : Fin cfg1.N) (i : S4096x16.Idx) :
    (Gen.iblk1 V c 7 t : S4096x16.Idx → Elt F .f32) i = (V c main_arg5 : S4096x16.Idx → Elt F .f32) i := by
  obtain ⟨e0, e1⟩ := idx_res7 t
  unfold Gen.iblk1
  rw [View.read_apply]
  show V c main_arg5 _ = V c main_arg5 _
  congr 1
  funext a
  apply Fin.ext
  match a with
  | ⟨0, _⟩ => show win1_7.index t (0 : Fin 2) * 4096 + 1 * (i 0).val = (i 0).val; omega
  | ⟨1, _⟩ => show win1_7.index t (1 : Fin 2) * 16 + 1 * (i 1).val = (i 1).val; omega

/-- Window 8 (the second layer's right factor) reads its whole array at every point. -/
theorem iblk_v1 (c : Dev nD) (t : Fin cfg1.N) (i : S16x4096.Idx) :
    (Gen.iblk1 V c 8 t : S16x4096.Idx → Elt F .f32) i = (V c main_arg6 : S16x4096.Idx → Elt F .f32) i := by
  obtain ⟨e0, e1⟩ := idx_res8 t
  unfold Gen.iblk1
  rw [View.read_apply]
  show V c main_arg6 _ = V c main_arg6 _
  congr 1
  funext a
  apply Fin.ext
  match a with
  | ⟨0, _⟩ => show win1_8.index t (0 : Fin 2) * 16 + 1 * (i 0).val = (i 0).val; omega
  | ⟨1, _⟩ => show win1_8.index t (1 : Fin 2) * 4096 + 1 * (i 1).val = (i 1).val; omega

/-- Window 9 (the second layer's bias) reads its whole array at every point. -/
theorem iblk_b1 (c : Dev nD) (t : Fin cfg1.N) (i : S1x4096.Idx) :
    (Gen.iblk1 V c 9 t : S1x4096.Idx → Elt F .f32) i = (V c main_v11 : S1x4096.Idx → Elt F .f32) i := by
  obtain ⟨e0, e1⟩ := idx_res9 t
  unfold Gen.iblk1
  rw [View.read_apply]
  show V c main_v11 _ = V c main_v11 _
  congr 1
  funext a
  apply Fin.ext
  match a with
  | ⟨0, _⟩ => show win1_9.index t (0 : Fin 2) * 1 + 1 * (i 0).val = (i 0).val; omega
  | ⟨1, _⟩ => show win1_9.index t (1 : Fin 2) * 4096 + 1 * (i 1).val = (i 1).val; omega

/-- Window 10 (the small network's first weights) reads its whole array at every point. -/
theorem iblk_w1 (c : Dev nD) (t : Fin cfg1.N) (i : S24x4096.Idx) :
    (Gen.iblk1 V c 10 t : S24x4096.Idx → Elt F .f32) i = (V c main_arg8 : S24x4096.Idx → Elt F .f32) i := by
  obtain ⟨e0, e1⟩ := idx_res10 t
  unfold Gen.iblk1
  rw [View.read_apply]
  show V c main_arg8 _ = V c main_arg8 _
  congr 1
  funext a
  apply Fin.ext
  match a with
  | ⟨0, _⟩ => show win1_10.index t (0 : Fin 2) * 24 + 1 * (i 0).val = (i 0).val; omega
  | ⟨1, _⟩ => show win1_10.index t (1 : Fin 2) * 4096 + 1 * (i 1).val = (i 1).val; omega

/-- Window 11 (the small network's first bias) reads its whole array at every point. -/
theorem iblk_bw1 (c : Dev nD) (t : Fin cfg1.N) (i : S1x24.Idx) :
    (Gen.iblk1 V c 11 t : S1x24.Idx → Elt F .f32) i = (V c main_v12 : S1x24.Idx → Elt F .f32) i := by
  obtain ⟨e0, e1⟩ := idx_res11 t
  unfold Gen.iblk1
  rw [View.read_apply]
  show V c main_v12 _ = V c main_v12 _
  congr 1
  funext a
  apply Fin.ext
  match a with
  | ⟨0, _⟩ => show win1_11.index t (0 : Fin 2) * 1 + 1 * (i 0).val = (i 0).val; omega
  | ⟨1, _⟩ => show win1_11.index t (1 : Fin 2) * 24 + 1 * (i 1).val = (i 1).val; omega

/-- Window 12 (the small network's second weights) reads its whole array at every point. -/
theorem iblk_w2 (c : Dev nD) (t : Fin cfg1.N) (i : S1x24.Idx) :
    (Gen.iblk1 V c 12 t : S1x24.Idx → Elt F .f32) i = (V c main_arg10 : S1x24.Idx → Elt F .f32) i := by
  obtain ⟨e0, e1⟩ := idx_res12 t
  unfold Gen.iblk1
  rw [View.read_apply]
  show V c main_arg10 _ = V c main_arg10 _
  congr 1
  funext a
  apply Fin.ext
  match a with
  | ⟨0, _⟩ => show win1_12.index t (0 : Fin 2) * 1 + 1 * (i 0).val = (i 0).val; omega
  | ⟨1, _⟩ => show win1_12.index t (1 : Fin 2) * 24 + 1 * (i 1).val = (i 1).val; omega

/-- Window 13 (the small network's second bias) reads its whole array at every point. -/
theorem iblk_bw2 (c : Dev nD) (t : Fin cfg1.N) (i : S1x1.Idx) :
    (Gen.iblk1 V c 13 t : S1x1.Idx → Elt F .f32) i = (V c main_v13 : S1x1.Idx → Elt F .f32) i := by
  obtain ⟨e0, e1⟩ := idx_res13 t
  unfold Gen.iblk1
  rw [View.read_apply]
  show V c main_v13 _ = V c main_v13 _
  congr 1
  funext a
  apply Fin.ext
  match a with
  | ⟨0, _⟩ => show win1_13.index t (0 : Fin 2) * 1 + 1 * (i 0).val = (i 0).val; omega
  | ⟨1, _⟩ => show win1_13.index t (1 : Fin 2) * 1 + 1 * (i 1).val = (i 1).val; omega

/-! ## The results: where a block's element sits, and every index is in some point's block -/

/-- An element of the first result's block at point `t` sits at row `256·t + p`. -/
theorem emb_out (t : Fin cfg1.N) (p : Fin 256) (q : Fin 4096) :
    ((cfg1.win 14).blk t).view.emb (ix2 p q) = ix2 (rowOf t p) q := by
  obtain ⟨-, -, -, -, e0, e1, -⟩ := idx_rows t
  funext a
  apply Fin.ext
  match a with
  | ⟨0, _⟩ => show win1_14.index t (0 : Fin 2) * 256 + 1 * p.val = 256 * t.val + p.val; omega
  | ⟨1, _⟩ => show win1_14.index t (1 : Fin 2) * 4096 + 1 * q.val = q.val; omega

/-- An element of the second result's block at point `t` sits at row `256·t + p`. -/
theorem emb_coeff (t : Fin cfg1.N) (p : Fin 256) (u : Fin 1) :
    ((cfg1.win 15).blk t).view.emb (ix2 p u) = ix2 (rowOf t p) u := by
  obtain ⟨-, -, -, -, -, -, e0, e1⟩ := idx_rows t
  funext a
  apply Fin.ext
  match a with
  | ⟨0, _⟩ => show win1_15.index t (0 : Fin 2) * 256 + 1 * p.val = 256 * t.val + p.val; omega
  | ⟨1, _⟩ => show win1_15.index t (1 : Fin 2) * 1 + 1 * u.val = u.val; omega

/-- An index of the first result is in point `t`'s block iff each coordinate is in the block's range on its axis. -/
theorem mem_blk14 (t : Fin cfg1.N) (i : S8192x4096.Idx) :
    i ∈ ((cfg1.win 14).blk t).view.set ↔ ∀ a : Fin 2, win1_14.index t a * S256x4096.size a ≤ (i a).val
      ∧ (i a).val < win1_14.index t a * S256x4096.size a + S256x4096.size a := by
  show i ∈ ((View.whole main_v14_0).slice (win1_14.rect t)).set ↔ _
  rw [View.set_slice_whole, Rect.mem_set_unit]
  exact Iff.rfl

/-- An index of the second result is in point `t`'s block iff each coordinate is in the block's range on its axis. -/
theorem mem_blk15 (t : Fin cfg1.N) (i : S8192x1.Idx) :
    i ∈ ((cfg1.win 15).blk t).view.set ↔ ∀ a : Fin 2, win1_15.index t a * S256x1.size a ≤ (i a).val
      ∧ (i a).val < win1_15.index t a * S256x1.size a + S256x1.size a := by
  show i ∈ ((View.whole main_v14_1).slice (win1_15.rect t)).set ↔ _
  rw [View.set_slice_whole, Rect.mem_set_unit]
  exact Iff.rfl

/-- Every index of the first result is in the block of the point `row / 256`, which writes back. -/
theorem cover_out (i : S8192x4096.Idx) :
    ∃ t : Fin cfg1.N, (cfg1.win 14).flush t = true ∧ i ∈ ((cfg1.win 14).blk t).view.set := by
  have hi0 : (i 0).val < 8192 := (i 0).isLt
  have hi1 : (i 1).val < 4096 := (i 1).isLt
  have hN : cfg1.N = 32 := N_1
  obtain ⟨t, ht⟩ : ∃ t : Fin cfg1.N, t.val = (i 0).val / 256 := ⟨⟨(i 0).val / 256, by omega⟩, rfl⟩
  obtain ⟨-, -, -, -, e0, e1, -⟩ := idx_rows t
  refine ⟨t, flush1_14 t, ?_⟩
  rw [mem_blk14]
  intro a
  match a with
  | ⟨0, _⟩ =>
    show win1_14.index t (0 : Fin 2) * 256 ≤ (i 0).val ∧ (i 0).val < win1_14.index t (0 : Fin 2) * 256 + 256
    omega
  | ⟨1, _⟩ =>
    show win1_14.index t (1 : Fin 2) * 4096 ≤ (i 1).val ∧ (i 1).val < win1_14.index t (1 : Fin 2) * 4096 + 4096
    omega

/-- Every index of the second result is in the block of the point `row / 256`, which writes back. -/
theorem cover_coeff (i : S8192x1.Idx) :
    ∃ t : Fin cfg1.N, (cfg1.win 15).flush t = true ∧ i ∈ ((cfg1.win 15).blk t).view.set := by
  have hi0 : (i 0).val < 8192 := (i 0).isLt
  have hi1 : (i 1).val < 1 := (i 1).isLt
  have hN : cfg1.N = 32 := N_1
  obtain ⟨t, ht⟩ : ∃ t : Fin cfg1.N, t.val = (i 0).val / 256 := ⟨⟨(i 0).val / 256, by omega⟩, rfl⟩
  obtain ⟨-, -, -, -, -, -, e0, e1⟩ := idx_rows t
  refine ⟨t, flush1_15 t, ?_⟩
  rw [mem_blk15]
  intro a
  match a with
  | ⟨0, _⟩ =>
    show win1_15.index t (0 : Fin 2) * 256 ≤ (i 0).val ∧ (i 0).val < win1_15.index t (0 : Fin 2) * 256 + 256
    omega
  | ⟨1, _⟩ =>
    show win1_15.index t (1 : Fin 2) * 1 ≤ (i 1).val ∧ (i 1).val < win1_15.index t (1 : Fin 2) * 1 + 1
    omega

end Cert.KernelIdeal.MainBlocks

end
-- ==== Proof.LibColumnSum.lean ====
/-
  Sums along axis 0 read at an index, for any extents, at the ideal values: the kernel's reduction along axis 0 of an
  `[a, b]` matrix is at column `q` the finite sum over the rows of the entries of that column, and the host's sum
  of a vector `[a]` into a scalar is the initial value plus the finite sum of the entries.
-/
import Idealize.ShloMosaic.Lib.ValueIdx
import Idealize.ShloMosaic.PureOps.Ideal.Laws

noncomputable section

namespace Cert.ColumnSum

open Idealize.ShloMosaic Idealize.ShloMosaic.ValueIdx

/-- The reduction along axis 0 of a matrix, at the ideal values, is the sum of the column's entries. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (funext fun c => Fin.ext (by
    match c with
    | ⟨0, _⟩ => rfl
    | ⟨1, _⟩ => rfl))

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of all the entries of a vector, at the ideal values, is the initial value plus the entries. -/
theorem hostVecSum_apply {a : ℕ} (x : FVec Ideal ⟨1, ![a]⟩ .f32) (init : (⟨0, ![]⟩ : Shape).Idx → Ideal .f32)
    (h' : (⟨1, ![a]⟩ : Shape).ReducesTo [0] ⟨0, ![]⟩) (hu : 0 < (⟨0, ![]⟩ : Shape).numel) (j : (⟨0, ![]⟩ : Shape).Idx) :
    Host.reduceAdd x init h' hu j = init ix0 + ∑ k : Fin a, x (ix1 k) := by
  unfold Host.reduceAdd
  rw [Ideal.hostReduceAdd_def]
  refine (Ideal.hostReduceAdd_total h' (fun b => b.elim0) x _ j).trans ?_
  have e : init (Shape.Idx.first hu) = init ix0 := congrArg init (funext fun c => c.elim0)
  rw [e, sum_idx1]

end Cert.ColumnSum

end
-- ==== Proof.Stats.lean ====
/-
  The statistics pass: eight grid points, each adding the column sums of a block of 1024 rows (and the column sums of the
  squares) into two [1, 4096] accumulators that are cleared at the first point and written back after the last. Read at
  a column, the two result arrays hold the sum over all 8192 rows of the entries, and of their squares.
-/
import proofs.«163950_j9002251453028_2_alg».proof.Proof.LibColumnSum
import proofs.«163950_j9002251453028_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Stats

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a rank-2 access. -/
theorem hz : (![0, 0] : Fin 2 → Nat) = fun _ => 0 := funext fun a => by fin_cases a <;> rfl

/-! ## What one grid point leaves in the two accumulators -/

/-- A later point (1 … 7) leaves in the first accumulator the payload of its one store, at the input block and the
    accumulator's running contents. -/
theorem out_B_1 (c : Dev nD) (i : grid0.Coords) (a1 : Memref sig .tc .vmem S1024x4096 .f32) (h1 : a1.IsWhole)
    (a2 : Memref sig .tc .vmem S1x4096 .f32) (h2 : a2.IsWhole) (a3 : Memref sig .tc .vmem S1x4096 .f32) (h3 : a3.IsWhole)
    (hc : ¬cond0_0 i) (x : Vec Ideal S1024x4096 .f32) (xo1 xo2 : Vec Ideal S1x4096 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, View.ld_unit_zero (S := S1024x4096) hz,
    View.ld_unit_zero (S := S1x4096) hz]

/-- A later point leaves in the second accumulator the payload of its one store. -/
theorem out_B_2 (c : Dev nD) (i : grid0.Coords) (a1 : Memref sig .tc .vmem S1024x4096 .f32) (h1 : a1.IsWhole)
    (a2 : Memref sig .tc .vmem S1x4096 .f32) (h2 : a2.IsWhole) (a3 : Memref sig .tc .vmem S1x4096 .f32) (h3 : a3.IsWhole)
    (hc : ¬cond0_0 i) (x : Vec Ideal S1024x4096 .f32) (xo1 xo2 : Vec Ideal S1x4096 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h3.read_unread, View.ld_unit_zero (S := S1024x4096) hz,
    View.ld_unit_zero (S := S1x4096) hz]

/-- The first point clears the first accumulator, reads the cleared block back, and leaves the payload at it. -/
theorem out_A_1 (c : Dev nD) (i : grid0.Coords) (a1 : Memref sig .tc .vmem S1024x4096 .f32) (h1 : a1.IsWhole)
    (a2 : Memref sig .tc .vmem S1x4096 .f32) (h2 : a2.IsWhole) (a3 : Memref sig .tc .vmem S1x4096 .f32) (h3 : a3.IsWhole)
    (hc : cond0_0 i) (x : Vec Ideal S1024x4096 .f32) :
    out0_A_1 c i a1 h1 a2 h2 a3 h3 hc x = k0_pay3 x (k0_pay1 (F := Ideal) : FVec Ideal S1x4096 .f32) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S1024x4096) hz]

/-- The first point does the same with the second accumulator. -/
theorem out_A_2 (c : Dev nD) (i : grid0.Coords) (a1 : Memref sig .tc .vmem S1024x4096 .f32) (h1 : a1.IsWhole)
    (a2 : Memref sig .tc .vmem S1x4096 .f32) (h2 : a2.IsWhole) (a3 : Memref sig .tc .vmem S1x4096 .f32) (h3 : a3.IsWhole)
    (hc : cond0_0 i) (x : Vec Ideal S1024x4096 .f32) :
    out0_A_2 c i a1 h1 a2 h2 a3 h3 hc x = k0_pay4 x (k0_pay2 (F := Ideal) : FVec Ideal S1x4096 .f32) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S1024x4096) hz]

/-! ## The payloads read at a column -/

/-- The cleared blocks read zero. -/
theorem pay1_apply (j : S1x4096.Idx) : (k0_pay1 (F := Ideal) : FVec Ideal S1x4096 .f32) j = 0 :=
  Ideal.ofBits_zero_f32

theorem pay2_apply (j : S1x4096.Idx) : (k0_pay2 (F := Ideal) : FVec Ideal S1x4096 .f32) j = 0 :=
  Ideal.ofBits_zero_f32

/-- The first store's payload at column `d`: the accumulator there plus the sum down the block's column. -/
theorem pay3_apply (x : Vec Ideal S1024x4096 .f32) (v : Vec Ideal S1x4096 .f32) (d : Fin 4096) :
    k0_pay3 x v (ix2 (0 : Fin 1) d) = v (ix2 (0 : Fin 1) d) + ∑ r : Fin 1024, x (ix2 r d) := by
  unfold k0_pay3
  refine congrArg₂ (· + ·) ?_ ?_
  · exact congrFun (shapeCast_self v _) _
  · refine (shapeCast_a_1a_apply _ _ (0 : Fin 1) d).trans ?_
    exact Cert.ColumnSum.colSum_apply x _ _ rfl d

/-- The second store's payload at column `d`: the accumulator there plus the sum of the squares down the block's column. -/
theorem pay4_apply (x : Vec Ideal S1024x4096 .f32) (v : Vec Ideal S1x4096 .f32) (d : Fin 4096) :
    k0_pay4 x v (ix2 (0 : Fin 1) d) = v (ix2 (0 : Fin 1) d) + ∑ r : Fin 1024, x (ix2 r d) * x (ix2 r d) := by
  unfold k0_pay4
  refine congrArg₂ (· + ·) ?_ ?_
  · exact congrFun (shapeCast_self v _) _
  · refine (shapeCast_a_1a_apply _ _ (0 : Fin 1) d).trans ?_
    exact Cert.ColumnSum.colSum_apply (mulf x x) _ _ rfl d

/-! ## The input block at a point -/

/-- Row `r` of the block of point `n`, as a row of the whole array (for `n < 8` the remainder changes nothing). -/
def rowIx (n : ℕ) (r : Fin 1024) : Fin 8192 := ⟨(1024 * n + r.val) % 8192, Nat.mod_lt _ (by decide)⟩

/-- The block the first window reads at point `t` holds rows `1024 t … 1024 t + 1023` of the array. -/
theorem iblk_apply (c : Dev nD) (t : Fin cfg0.N) (r : Fin 1024) (d : Fin 4096) :
    (iblk0 V c 0 t : Vec Ideal S1024x4096 .f32) (ix2 r d) = V c main_arg0 (ix2 (rowIx t.val r) d) := by
  have hi : win0_0.index t 0 = t.val ∧ win0_0.index t 1 = 0 :=
    (by decide +kernel : ∀ t : Fin grid0.N, win0_0.index t 0 = t.val ∧ win0_0.index t 1 = 0) t
  have hN : t.val < 8 := lt_of_lt_of_eq t.isLt (show cfg0.N = 8 from N_0)
  unfold iblk0
  rw [View.read_apply]
  show V c main_arg0 _ = V c main_arg0 _
  congr 1
  funext a
  apply Fin.ext
  match a with
  | ⟨0, _⟩ =>
    show win0_0.index t 0 * 1024 + 1 * r.val = (1024 * t.val + r.val) % 8192
    rw [hi.1]; have := r.isLt; omega
  | ⟨1, _⟩ =>
    show win0_0.index t 1 * 4096 + 1 * d.val = d.val
    rw [hi.2]; omega

/-! ## The running sums -/

/-- The eight blocks of 1024 rows are all 8192 rows: a sum over the rows is the sum over the blocks of the sums over
    each block's rows. -/
theorem sum_blocks {M : Type*} [AddCommMonoid M] (f : Fin 8192 → M) :
    ∑ t ∈ Finset.range 8, ∑ r : Fin 1024, f (rowIx t r) = ∑ b : Fin 8192, f b := by
  rw [Finset.sum_range (fun t => ∑ r : Fin 1024, f (rowIx t r)), ← Finset.sum_product']
  refine Fintype.sum_equiv (finProdFinEquiv (m := 8) (n := 1024)) _ _ fun p => congrArg f (Fin.ext ?_)
  show (1024 * p.1.val + p.2.val) % 8192 = p.2.val + 1024 * p.1.val
  have h1 := p.1.isLt
  have h2 := p.2.isLt
  omega

/-- The array the pass reads, by its two coordinates. -/
def grad (c : Dev nD) (b : Fin 8192) (d : Fin 4096) : EReal := V c main_arg0 (ix2 b d)

/-- What block `n` adds to column `d` of the first accumulator, and of the second. -/
def part1 (c : Dev nD) (n : ℕ) (d : Fin 4096) : EReal := ∑ r : Fin 1024, grad V c (rowIx n r) d
def part2 (c : Dev nD) (n : ℕ) (d : Fin 4096) : EReal := ∑ r : Fin 1024, grad V c (rowIx n r) d * grad V c (rowIx n r) d

/-- The column sums of the block of point `t`. -/
theorem blockSum1 (c : Dev nD) (t : Fin cfg0.N) (d : Fin 4096) (x : Vec Ideal S1024x4096 .f32) (hx : x = iblk0 V c 0 t) :
    ∑ r : Fin 1024, x (ix2 r d) = part1 V c t.val d := by
  subst hx
  exact Finset.sum_congr rfl fun r _ => iblk_apply V c t r d

theorem blockSum2 (c : Dev nD) (t : Fin cfg0.N) (d : Fin 4096) (x : Vec Ideal S1024x4096 .f32) (hx : x = iblk0 V c 0 t) :
    ∑ r : Fin 1024, x (ix2 r d) * x (ix2 r d) = part2 V c t.val d := by
  subst hx
  exact Finset.sum_congr rfl fun r _ => congrArg (fun y : EReal => y * y) (iblk_apply V c t r d)

/-- After point `n` the accumulators hold, at column `d`, what the blocks `0 … n` added: by induction on the point. -/
theorem outs_eq (c : Dev nD) : ∀ (n : ℕ) (hn : n < cfg0.N),
    (∀ d : Fin 4096, (outsAt0 V c n hn).1 (ix2 (0 : Fin 1) d) = ∑ t ∈ Finset.range (n + 1), part1 V c t d)
    ∧ (∀ d : Fin 4096, (outsAt0 V c n hn).2 (ix2 (0 : Fin 1) d) = ∑ t ∈ Finset.range (n + 1), part2 V c t d)
  | 0, hn => by
    rw [outsAt0_A V c ⟨0, hn⟩ rfl, out_A_1, out_A_2]
    refine ⟨fun d => ?_, fun d => ?_⟩
    · rw [Finset.sum_range_one]
      refine (pay3_apply _ _ d).trans ?_
      rw [pay1_apply, zero_add]
      exact blockSum1 V c ⟨0, hn⟩ d _ rfl
    · rw [Finset.sum_range_one]
      refine (pay4_apply _ _ d).trans ?_
      rw [pay2_apply, zero_add]
      exact blockSum2 V c ⟨0, hn⟩ d _ rfl
  | n + 1, hn => by
    have hN : cfg0.N = 8 := N_0
    have hB : ¬(⟨n + 1, hn⟩ : Fin cfg0.N).val % 8 = 0 := by dsimp only; omega
    have ih := outs_eq c n (Nat.lt_of_succ_lt hn)
    rw [outsAt0_B V c ⟨n + 1, hn⟩ hB, out_B_1, out_B_2]
    refine ⟨fun d => ?_, fun d => ?_⟩
    · rw [Finset.sum_range_succ _ (n + 1)]
      refine (pay3_apply _ _ d).trans ?_
      exact congrArg₂ (· + ·) (ih.1 d) (blockSum1 V c ⟨n + 1, hn⟩ d _ rfl)
    · rw [Finset.sum_range_succ _ (n + 1)]
      refine (pay4_apply _ _ d).trans ?_
      exact congrArg₂ (· + ·) (ih.2 d) (blockSum2 V c ⟨n + 1, hn⟩ d _ rfl)

/-! ## The result arrays -/

theorem seven_lt : 7 < cfg0.N := by rw [show cfg0.N = 8 from N_0]; decide

/-- What the two accumulators hold after the last point, as contents of the result arrays (one block is the array). -/
abbrev result1 (c : Dev nD) : Buf (Elt Ideal) ((c : Thread nD τ).loc main_v0_0) := (outsAt0 V c 7 seven_lt).1
abbrev result2 (c : Dev nD) : Buf (Elt Ideal) ((c : Thread nD τ).loc main_v0_1) := (outsAt0 V c 7 seven_lt).2

/-- The one write-back of the first result, after point 7, writes the first accumulator: block (0, 0) of the [1, 4096]
    array, read through zero offsets, is the array. -/
theorem flushed_eq1 (c : Dev nD) (t : Fin cfg0.N) (hf : (cfg0.win 1).flush t = true) :
    (dat0 V c).flushed 1 t = ((cfg0.win 1).blk t).view.read (Elt Ideal) (result1 V c) := by
  have hN : cfg0.N = 8 := N_0
  have h7 : t.val = 7 := by have := (flush0_1 t).mp hf; have := t.isLt; omega
  obtain rfl : t = t0_7 := Fin.ext h7
  show (cfg0.win 1).cut (grid0.coords t0_7) ((dat0 V c).after 1 t0_7) = _
  rw [after0_1]
  have hz' : (fun a => win0_1.index t0_7 a * main_v0_0.ty.shape.size a) = fun _ => 0 := funext fun a => by fin_cases a <;> decide
  exact (Memref.read_access_unit_zero (Elt Ideal) main_v0_0 hz' (fun a => by rw [congrFun hz' a]; simp) (result1 V c)).symm

/-- The same for the second result. -/
theorem flushed_eq2 (c : Dev nD) (t : Fin cfg0.N) (hf : (cfg0.win 2).flush t = true) :
    (dat0 V c).flushed 2 t = ((cfg0.win 2).blk t).view.read (Elt Ideal) (result2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  have hz' : (fun a => win0_2.index t0_7 a * main_v0_1.ty.shape.size a) = fun _ => 0 := funext fun a => by fin_cases a <;> decide
  exact (Memref.read_access_unit_zero (Elt Ideal) main_v0_1 hz' (fun a => by rw [congrFun hz' a]; simp) (result2 V c)).symm

/-- So the first result array ends holding the first accumulator after point 7: that point's block covers the array. -/
theorem final1 (c : Dev nD) : (dat0 V c).arrAt 1 cfg0.N = result1 V c :=
  (dat0 V c).arrAt_eq_of_cover 1 (result1 V c) (flushed_eq1 V c) fun i =>
    ⟨t0_7, (flush0_1 t0_7).mpr rfl, by
      show i ∈ ((View.whole main_v0_0).slice (win0_1.rect t0_7)).set
      rw [View.set_slice_whole, Rect.mem_set_unit]
      intro a
      have h0 : (i 0 : Nat) < 1 := (i 0).isLt
      have h1 : (i 1 : Nat) < 4096 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 4096 from by decide +kernel]; omega⟩

/-- The same for the second result array. -/
theorem final2 (c : Dev nD) : (dat0 V c).arrAt 2 cfg0.N = result2 V c :=
  (dat0 V c).arrAt_eq_of_cover 2 (result2 V c) (flushed_eq2 V c) fun i =>
    ⟨t0_7, (flush0_2 t0_7).mpr rfl, by
      show i ∈ ((View.whole main_v0_1).slice (win0_2.rect t0_7)).set
      rw [View.set_slice_whole, Rect.mem_set_unit]
      intro a
      have h0 : (i 0 : Nat) < 1 := (i 0).isLt
      have h1 : (i 1 : Nat) < 4096 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 4096 from by decide +kernel]; omega⟩

/-- The first result array at column `d`: the sum of column `d` over all 8192 rows. -/
theorem sumx_final (c : Dev nD) (d : Fin 4096) :
    ((Gen.dat0 (F := Ideal) V c).arrAt 1 cfg0.N : S1x4096.Idx → EReal) (ix2 (0 : Fin 1) d)
      = (∑ b : Fin 8192, V c main_arg0 (ix2 b d) : EReal) := by
  refine (congrFun (final1 V c) _).trans ?_
  refine ((outs_eq V c 7 seven_lt).1 d).trans ?_
  exact sum_blocks fun b => grad V c b d

/-- The second result array at column `d`: the sum of the squares of column `d` over all 8192 rows. -/
theorem sumx2_final (c : Dev nD) (d : Fin 4096) :
    ((Gen.dat0 (F := Ideal) V c).arrAt 2 cfg0.N : S1x4096.Idx → EReal) (ix2 (0 : Fin 1) d)
      = (∑ b : Fin 8192, HMul.hMul (α := EReal) (β := EReal) (γ := EReal) (V c main_arg0 (ix2 b d)) (V c main_arg0 (ix2 b d)) : EReal) := by
  refine (congrFun (final2 V c) _).trans ?_
  refine ((outs_eq V c 7 seven_lt).2 d).trans ?_
  exact sum_blocks fun b => grad V c b d * grad V c b d

end Cert.KernelIdeal.Stats

end
-- ==== Proof.KValue.lean ====
/-
  The idealized kernel's two result arrays as the specification's functions of the launch memory.

  The second region processes the batch 256 rows at a time. At point `t` its windows hold rows `256·t … 256·t + 255` of
  the two batches and, whole, the twelve small operands: the mean row and the standard-deviation row the host computed
  from the first region's two accumulated rows (the column sums and the column sums of squares of the whole batch),
  the layers' matrices and bias rows, the small network's weights. What the body leaves in the two output blocks is,
  row by row, the specification's blended row and blending weight of those operands; every point writes its two blocks
  back, and the blocks of 256 rows tile the two result arrays. So the arrays end holding `OutK` and `CoeffK`.
-/
import proofs.«163950_j9002251453028_2_alg».proof.Proof.KHost
import proofs.«163950_j9002251453028_2_alg».proof.Proof.Spec
import proofs.«163950_j9002251453028_2_alg».proof.Proof.MainBody
import proofs.«163950_j9002251453028_2_alg».proof.Proof.MainBlocks
import proofs.«163950_j9002251453028_2_alg».proof.Proof.Stats
import Idealize.ShloMosaic.Lib.Pipeline.Value
import Idealize.ShloMosaic.Lib.ValueIdx

set_option maxRecDepth 16384

noncomputable section

namespace Cert.KernelIdeal.Val

open Cert.KernelIdeal Cert.KernelIdeal.Gen Cert.Spec Idealize.ShloMosaic Idealize.ShloMosaic.TcCoe Idealize.SL.Sem
open Idealize.ShloMosaic.ValueIdx
open Idealize.ShloMosaic.Pipeline (Dat)
open Cert.KernelIdeal.MainBlocks (rowOf)
open scoped BigOperators

variable (m : (ℓ : Loc nD τ sig) → Buf (Elt Ideal) ℓ) (ρ : Dev nD → PrngReg)

/-! ## The argument arrays, as plain functions of their indices -/

abbrev aGrad (c : Dev nD) : S8192x4096.Idx → EReal := m ((c.tc : Thread nD τ).loc main_arg0)
abbrev aEmbed (c : Dev nD) : S8192x4096.Idx → EReal := m ((c.tc : Thread nD τ).loc main_arg1)
abbrev aU0 (c : Dev nD) : S4096x16.Idx → EReal := m ((c.tc : Thread nD τ).loc main_arg2)
abbrev aV0 (c : Dev nD) : S16x4096.Idx → EReal := m ((c.tc : Thread nD τ).loc main_arg3)
abbrev aB0 (c : Dev nD) : S4096.Idx → EReal := m ((c.tc : Thread nD τ).loc main_arg4)
abbrev aU1 (c : Dev nD) : S4096x16.Idx → EReal := m ((c.tc : Thread nD τ).loc main_arg5)
abbrev aV1 (c : Dev nD) : S16x4096.Idx → EReal := m ((c.tc : Thread nD τ).loc main_arg6)
abbrev aB1 (c : Dev nD) : S4096.Idx → EReal := m ((c.tc : Thread nD τ).loc main_arg7)
abbrev aW1 (c : Dev nD) : S24x4096.Idx → EReal := m ((c.tc : Thread nD τ).loc main_arg8)
abbrev aBw1 (c : Dev nD) : S24.Idx → EReal := m ((c.tc : Thread nD τ).loc main_arg9)
abbrev aW2 (c : Dev nD) : S1x24.Idx → EReal := m ((c.tc : Thread nD τ).loc main_arg10)
abbrev aBw2 (c : Dev nD) : S1.Idx → EReal := m ((c.tc : Thread nD τ).loc main_arg11)

/-- The first result: every row blended as the specification's `outKrow` says, with the columns' mean and the
    spread written as the sum of squares less `n · μ · μ`. -/
def OutK (c : Dev nD) : S8192x4096.Idx → EReal := fun i =>
  outKrow (curry2 (aGrad m c) (i 0)) (curry2 (aEmbed m c) (i 0)) (mean (curry2 (aGrad m c)))
    (stdOf (spreadK (curry2 (aGrad m c)))) (curry2 (aU0 m c)) (curry2 (aV0 m c)) (curry1 (aB0 m c))
    (curry2 (aU1 m c)) (curry2 (aV1 m c)) (curry1 (aB1 m c)) (curry2 (aW1 m c)) (curry1 (aBw1 m c))
    (row0 (aW2 m c)) (aBw2 m c (ix1 (0 : Fin 1))) (i 1)

/-- The second result: each row's blending weight. -/
def CoeffK (c : Dev nD) : S8192x1.Idx → EReal := fun i =>
  coeffRow (curry2 (aEmbed m c) (i 0)) (curry2 (aW1 m c)) (curry1 (aBw1 m c)) (row0 (aW2 m c))
    (aBw2 m c (ix1 (0 : Fin 1)))

/-! ## What the second region is entered from -/

/-- The first region leaves the column sums of the batch in its first result row. -/
theorem sRow_eq (c : Dev nD) (d : Fin 4096) : sRow m ρ c (ix2 (0 : Fin 1) d) = colSum (curry2 (aGrad m c)) d :=
  (congrFun (W1_arr m ρ c 1) (ix2 (0 : Fin 1) d)).trans (Cert.KernelIdeal.Stats.sumx_final (V0 m ρ) c d)

/-- … and the column sums of its squares in the second. -/
theorem qRow_eq (c : Dev nD) (d : Fin 4096) : qRow m ρ c (ix2 (0 : Fin 1) d) = colSumSq (curry2 (aGrad m c)) d :=
  (congrFun (W1_arr m ρ c 2) (ix2 (0 : Fin 1) d)).trans (Cert.KernelIdeal.Stats.sumx2_final (V0 m ρ) c d)

theorem mean_entry (c : Dev nD) : row0 (V2 m ρ c main_v2 : S1x4096.Idx → EReal) = mean (curry2 (aGrad m c)) := by
  funext d
  show (V2 m ρ c main_v2 : S1x4096.Idx → EReal) (ix2 (0 : Fin 1) d) = _
  rw [V2_mean_apply, sRow_eq]
  rfl

theorem std_entry (c : Dev nD) : row0 (V2 m ρ c main_v9 : S1x4096.Idx → EReal) = stdOf (spreadK (curry2 (aGrad m c))) := by
  funext d
  show (V2 m ρ c main_v9 : S1x4096.Idx → EReal) (ix2 (0 : Fin 1) d) = _
  rw [V2_std_apply, sRow_eq, qRow_eq]
  rfl

/-! ## What each point of the second region writes back -/

theorem flushed_out (c : Dev nD) (t : Fin cfg1.N) :
    (dat1 (V2 m ρ) c).flushed 14 t = ((cfg1.win 14).blk t).view.read (Elt Ideal) (OutK m c) := by
  show (cfg1.win 14).cut (grid1.coords t) ((dat1 (V2 m ρ) c).after 14 t) = _
  rw [after1_14]
  funext j
  obtain ⟨p, q, rfl⟩ : ∃ (p : Fin 256) (q : Fin 4096), j = ix2 p q := ⟨j 0, j 1, eq_ix2 j⟩
  show out1_14 (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (iblk1 (V2 m ρ) c 9 t) (iblk1 (V2 m ρ) c 10 t) (iblk1 (V2 m ρ) c 11 t) (iblk1 (V2 m ρ) c 12 t) (iblk1 (V2 m ρ) c 13 t) (ix2 p q) = OutK m c (((cfg1.win 14).blk t).view.emb (ix2 p q))
  rw [Cert.KernelIdeal.MainBlocks.emb_out]
  refine (Cert.KernelIdeal.MainBody.out1_14_apply (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (iblk1 (V2 m ρ) c 9 t) (iblk1 (V2 m ρ) c 10 t) (iblk1 (V2 m ρ) c 11 t) (iblk1 (V2 m ρ) c 12 t) (iblk1 (V2 m ρ) c 13 t) p q).trans ?_
  have e0 : curry2 (iblk1 (V2 m ρ) c 0 t : S256x4096.Idx → EReal) p = curry2 (aGrad m c) (rowOf t p) :=
    funext fun d => (Cert.KernelIdeal.MainBlocks.iblk_grad (V2 m ρ) c t p d).trans (congrFun (V2_grad m ρ c) _)
  have e1 : curry2 (iblk1 (V2 m ρ) c 1 t : S256x4096.Idx → EReal) p = curry2 (aEmbed m c) (rowOf t p) :=
    funext fun d => (Cert.KernelIdeal.MainBlocks.iblk_embed (V2 m ρ) c t p d).trans (congrFun (V2_embed m ρ c) _)
  have e2 : row0 (iblk1 (V2 m ρ) c 2 t : S1x4096.Idx → EReal) = mean (curry2 (aGrad m c)) :=
    funext fun d => (Cert.KernelIdeal.MainBlocks.iblk_mean (V2 m ρ) c t _).trans (congrFun (mean_entry m ρ c) d)
  have e3 : row0 (iblk1 (V2 m ρ) c 3 t : S1x4096.Idx → EReal) = stdOf (spreadK (curry2 (aGrad m c))) :=
    funext fun d => (Cert.KernelIdeal.MainBlocks.iblk_std (V2 m ρ) c t _).trans (congrFun (std_entry m ρ c) d)
  have e4 : curry2 (iblk1 (V2 m ρ) c 4 t : S4096x16.Idx → EReal) = curry2 (aU0 m c) :=
    funext fun a => funext fun b => (Cert.KernelIdeal.MainBlocks.iblk_u0 (V2 m ρ) c t _).trans (congrFun (V2_u0 m ρ c) _)
  have e5 : curry2 (iblk1 (V2 m ρ) c 5 t : S16x4096.Idx → EReal) = curry2 (aV0 m c) :=
    funext fun a => funext fun b => (Cert.KernelIdeal.MainBlocks.iblk_v0 (V2 m ρ) c t _).trans (congrFun (V2_v0 m ρ c) _)
  have e6 : row0 (iblk1 (V2 m ρ) c 6 t : S1x4096.Idx → EReal) = curry1 (aB0 m c) :=
    funext fun d => (Cert.KernelIdeal.MainBlocks.iblk_b0 (V2 m ρ) c t _).trans (V2_b0_apply m ρ c d)
  have e7 : curry2 (iblk1 (V2 m ρ) c 7 t : S4096x16.Idx → EReal) = curry2 (aU1 m c) :=
    funext fun a => funext fun b => (Cert.KernelIdeal.MainBlocks.iblk_u1 (V2 m ρ) c t _).trans (congrFun (V2_u1 m ρ c) _)
  have e8 : curry2 (iblk1 (V2 m ρ) c 8 t : S16x4096.Idx → EReal) = curry2 (aV1 m c) :=
    funext fun a => funext fun b => (Cert.KernelIdeal.MainBlocks.iblk_v1 (V2 m ρ) c t _).trans (congrFun (V2_v1 m ρ c) _)
  have e9 : row0 (iblk1 (V2 m ρ) c 9 t : S1x4096.Idx → EReal) = curry1 (aB1 m c) :=
    funext fun d => (Cert.KernelIdeal.MainBlocks.iblk_b1 (V2 m ρ) c t _).trans (V2_b1_apply m ρ c d)
  have e10 : curry2 (iblk1 (V2 m ρ) c 10 t : S24x4096.Idx → EReal) = curry2 (aW1 m c) :=
    funext fun a => funext fun b => (Cert.KernelIdeal.MainBlocks.iblk_w1 (V2 m ρ) c t _).trans (congrFun (V2_w1 m ρ c) _)
  have e11 : row0 (iblk1 (V2 m ρ) c 11 t : S1x24.Idx → EReal) = curry1 (aBw1 m c) :=
    funext fun j => (Cert.KernelIdeal.MainBlocks.iblk_bw1 (V2 m ρ) c t _).trans (V2_bw1_apply m ρ c j)
  have e12 : row0 (iblk1 (V2 m ρ) c 12 t : S1x24.Idx → EReal) = row0 (aW2 m c) :=
    funext fun j => (Cert.KernelIdeal.MainBlocks.iblk_w2 (V2 m ρ) c t _).trans (congrFun (V2_w2 m ρ c) _)
  have e13 : (iblk1 (V2 m ρ) c 13 t : S1x1.Idx → EReal) (ix2 (0 : Fin 1) (0 : Fin 1)) = aBw2 m c (ix1 (0 : Fin 1)) :=
    (Cert.KernelIdeal.MainBlocks.iblk_bw2 (V2 m ρ) c t _).trans (V2_bw2_apply m ρ c)
  rw [e0, e1, e2, e3, e4, e5, e6, e7, e8, e9, e10, e11, e12, e13]
  rfl

theorem flushed_coeff (c : Dev nD) (t : Fin cfg1.N) :
    (dat1 (V2 m ρ) c).flushed 15 t = ((cfg1.win 15).blk t).view.read (Elt Ideal) (CoeffK m c) := by
  show (cfg1.win 15).cut (grid1.coords t) ((dat1 (V2 m ρ) c).after 15 t) = _
  rw [after1_15]
  funext j
  obtain ⟨p, u, rfl⟩ : ∃ (p : Fin 256) (u : Fin 1), j = ix2 p u := ⟨j 0, j 1, eq_ix2 j⟩
  obtain rfl : u = 0 := Subsingleton.elim _ _
  show out1_15 (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (iblk1 (V2 m ρ) c 9 t) (iblk1 (V2 m ρ) c 10 t) (iblk1 (V2 m ρ) c 11 t) (iblk1 (V2 m ρ) c 12 t) (iblk1 (V2 m ρ) c 13 t) (ix2 p (0 : Fin 1)) = CoeffK m c (((cfg1.win 15).blk t).view.emb (ix2 p (0 : Fin 1)))
  rw [Cert.KernelIdeal.MainBlocks.emb_coeff]
  refine (Cert.KernelIdeal.MainBody.out1_15_apply (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (iblk1 (V2 m ρ) c 9 t) (iblk1 (V2 m ρ) c 10 t) (iblk1 (V2 m ρ) c 11 t) (iblk1 (V2 m ρ) c 12 t) (iblk1 (V2 m ρ) c 13 t) p).trans ?_
  have e0 : curry2 (iblk1 (V2 m ρ) c 0 t : S256x4096.Idx → EReal) p = curry2 (aGrad m c) (rowOf t p) :=
    funext fun d => (Cert.KernelIdeal.MainBlocks.iblk_grad (V2 m ρ) c t p d).trans (congrFun (V2_grad m ρ c) _)
  have e1 : curry2 (iblk1 (V2 m ρ) c 1 t : S256x4096.Idx → EReal) p = curry2 (aEmbed m c) (rowOf t p) :=
    funext fun d => (Cert.KernelIdeal.MainBlocks.iblk_embed (V2 m ρ) c t p d).trans (congrFun (V2_embed m ρ c) _)
  have e2 : row0 (iblk1 (V2 m ρ) c 2 t : S1x4096.Idx → EReal) = mean (curry2 (aGrad m c)) :=
    funext fun d => (Cert.KernelIdeal.MainBlocks.iblk_mean (V2 m ρ) c t _).trans (congrFun (mean_entry m ρ c) d)
  have e3 : row0 (iblk1 (V2 m ρ) c 3 t : S1x4096.Idx → EReal) = stdOf (spreadK (curry2 (aGrad m c))) :=
    funext fun d => (Cert.KernelIdeal.MainBlocks.iblk_std (V2 m ρ) c t _).trans (congrFun (std_entry m ρ c) d)
  have e4 : curry2 (iblk1 (V2 m ρ) c 4 t : S4096x16.Idx → EReal) = curry2 (aU0 m c) :=
    funext fun a => funext fun b => (Cert.KernelIdeal.MainBlocks.iblk_u0 (V2 m ρ) c t _).trans (congrFun (V2_u0 m ρ c) _)
  have e5 : curry2 (iblk1 (V2 m ρ) c 5 t : S16x4096.Idx → EReal) = curry2 (aV0 m c) :=
    funext fun a => funext fun b => (Cert.KernelIdeal.MainBlocks.iblk_v0 (V2 m ρ) c t _).trans (congrFun (V2_v0 m ρ c) _)
  have e6 : row0 (iblk1 (V2 m ρ) c 6 t : S1x4096.Idx → EReal) = curry1 (aB0 m c) :=
    funext fun d => (Cert.KernelIdeal.MainBlocks.iblk_b0 (V2 m ρ) c t _).trans (V2_b0_apply m ρ c d)
  have e7 : curry2 (iblk1 (V2 m ρ) c 7 t : S4096x16.Idx → EReal) = curry2 (aU1 m c) :=
    funext fun a => funext fun b => (Cert.KernelIdeal.MainBlocks.iblk_u1 (V2 m ρ) c t _).trans (congrFun (V2_u1 m ρ c) _)
  have e8 : curry2 (iblk1 (V2 m ρ) c 8 t : S16x4096.Idx → EReal) = curry2 (aV1 m c) :=
    funext fun a => funext fun b => (Cert.KernelIdeal.MainBlocks.iblk_v1 (V2 m ρ) c t _).trans (congrFun (V2_v1 m ρ c) _)
  have e9 : row0 (iblk1 (V2 m ρ) c 9 t : S1x4096.Idx → EReal) = curry1 (aB1 m c) :=
    funext fun d => (Cert.KernelIdeal.MainBlocks.iblk_b1 (V2 m ρ) c t _).trans (V2_b1_apply m ρ c d)
  have e10 : curry2 (iblk1 (V2 m ρ) c 10 t : S24x4096.Idx → EReal) = curry2 (aW1 m c) :=
    funext fun a => funext fun b => (Cert.KernelIdeal.MainBlocks.iblk_w1 (V2 m ρ) c t _).trans (congrFun (V2_w1 m ρ c) _)
  have e11 : row0 (iblk1 (V2 m ρ) c 11 t : S1x24.Idx → EReal) = curry1 (aBw1 m c) :=
    funext fun j => (Cert.KernelIdeal.MainBlocks.iblk_bw1 (V2 m ρ) c t _).trans (V2_bw1_apply m ρ c j)
  have e12 : row0 (iblk1 (V2 m ρ) c 12 t : S1x24.Idx → EReal) = row0 (aW2 m c) :=
    funext fun j => (Cert.KernelIdeal.MainBlocks.iblk_w2 (V2 m ρ) c t _).trans (congrFun (V2_w2 m ρ c) _)
  have e13 : (iblk1 (V2 m ρ) c 13 t : S1x1.Idx → EReal) (ix2 (0 : Fin 1) (0 : Fin 1)) = aBw2 m c (ix1 (0 : Fin 1)) :=
    (Cert.KernelIdeal.MainBlocks.iblk_bw2 (V2 m ρ) c t _).trans (V2_bw2_apply m ρ c)
  rw [e1, e10, e11, e12, e13]
  rfl

/-! ## The two result arrays after the run -/

/-- The second region's blocks of 256 rows tile the first result array, and each is the block of `OutK`. -/
theorem final_out (c : Dev nD) : (dat1 (V2 m ρ) c).arrAt 14 cfg1.N = OutK m c :=
  (dat1 (V2 m ρ) c).arrAt_eq_of_cover 14 (OutK m c) (fun t _ => flushed_out m ρ c t) Cert.KernelIdeal.MainBlocks.cover_out

/-- The same for the column of blending weights. -/
theorem final_coeff (c : Dev nD) : (dat1 (V2 m ρ) c).arrAt 15 cfg1.N = CoeffK m c :=
  (dat1 (V2 m ρ) c).arrAt_eq_of_cover 15 (CoeffK m c) (fun t _ => flushed_coeff m ρ c t) Cert.KernelIdeal.MainBlocks.cover_coeff

/-- The idealized kernel's run: the two result arrays at the specification's functions of the launch memory, the
    arguments unchanged. -/
theorem run : θ_run defs (onTc (τ := τ) (main (F := Ideal))) ⟨m, fun _ => 0, ρ⟩ (fun r => ∀ c : Dev nD,
      r.2.mem ((c.tc : Thread nD τ).loc main_v14_0) = OutK m c
      ∧ r.2.mem ((c.tc : Thread nD τ).loc main_v14_1) = CoeffK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (final_out m ρ c), (h c).2.1.trans (final_coeff m ρ c), (h c).2.2⟩)
    (run_arrays (F := Ideal) m ρ)

end Cert.KernelIdeal.Val

end
-- ==== Proof.RefRead.lean ====
/-
  The reference program's run, read one operation at a time: this module only gathers the
  generated run and read-at-an-index lemmas of the reference so that the modules stating
  what the reference computes import one name.
-/
import proofs.«163950_j9002251453028_2_alg».proof.Proof.Gen.ReferenceIdeal.Read
-- ==== Proof.RefValue.lean ====
/-
  What the reference program computes, read at one index: its result at row `r`, column `d` is the
  blended row `outRrow` of the specification, and its blending weight at row `r` is `coeffRow`.

  Each stage of the reference is read at an index built from literal-typed coordinates; the stages
  are chained bottom-up: column mean, column spread and its root, the centred and scaled row, the
  two low-rank layers, the two row lengths, the rescaled row, the small network and its logistic
  weight, and the blend.
-/
import proofs.«163950_j9002251453028_2_alg».proof.Proof.Spec
import proofs.«163950_j9002251453028_2_alg».proof.Proof.RefRead
import Idealize.ShloMosaic.Lib.ValueIdx
import Idealize.ShloMosaic.PureOps.Ideal.Laws

noncomputable section

namespace Cert.ReferenceIdeal.RefValue

open Cert.ReferenceIdeal Cert.ReferenceIdeal.Read Cert.Spec Idealize.ShloMosaic Idealize.ShloMosaic.ValueIdx
open scoped BigOperators

/-! ## The small network and the blending weight -/

/-- The transposed first weight matrix of the small network, at an index. -/
theorem v53_apply (x8 : (⟨S24x4096, .f32⟩ : BufTy).Contents (Elt Ideal)) (k : Fin 4096) (j : Fin 24) :
    val_main_v53 (F := Ideal) x8 (ix2 k j) = x8 (ix2 j k) := by
  rw [val_main_v53_apply]
  exact congrArg x8 (funext fun a => Fin.ext (by match a with | ⟨0, _⟩ => rfl | ⟨1, _⟩ => rfl))

/-- The first layer's product: row `r` of `e` against row `j` of `w1`. -/
theorem v54_apply (x1 : (⟨S8192x4096, .f32⟩ : BufTy).Contents (Elt Ideal)) (x8 : (⟨S24x4096, .f32⟩ : BufTy).Contents (Elt Ideal)) (r : Fin 8192) (j : Fin 24) :
    val_main_v54 (F := Ideal) x1 x8 (ix2 r j) = ∑ k : Fin 4096, x1 (ix2 r k) * x8 (ix2 j k) := by
  rw [val_main_v54_apply]
  refine Finset.sum_congr rfl fun k _ => ?_
  have hl : lidx_main_v54 (ix2 r j) k = ix2 r k :=
    funext fun a => Fin.ext (by match a with | ⟨0, _⟩ => rfl | ⟨1, _⟩ => rfl)
  have hr : ridx_main_v54 (ix2 r j) k = ix2 k j :=
    funext fun a => Fin.ext (by match a with | ⟨0, _⟩ => rfl | ⟨1, _⟩ => rfl)
  rw [hl, hr, v53_apply]

/-- The first bias, broadcast over the rows. -/
theorem v56_apply (x9 : (⟨S24, .f32⟩ : BufTy).Contents (Elt Ideal)) (r : Fin 8192) (j : Fin 24) :
    val_main_v56 (F := Ideal) x9 (ix2 r j) = x9 (ix1 j) := by
  rw [val_main_v56_apply, val_main_v55_apply]
  exact congrArg x9 (funext fun a => Fin.ext (by match a with | ⟨0, _⟩ => rfl))

/-- The first layer of the small network, clamped at zero. -/
theorem v59_apply (x1 : (⟨S8192x4096, .f32⟩ : BufTy).Contents (Elt Ideal)) (x8 : (⟨S24x4096, .f32⟩ : BufTy).Contents (Elt Ideal)) (x9 : (⟨S24, .f32⟩ : BufTy).Contents (Elt Ideal)) (r : Fin 8192) (j : Fin 24) :
    val_main_v59 (F := Ideal) x1 x8 x9 (ix2 r j)
      = max ((∑ k : Fin 4096, x1 (ix2 r k) * x8 (ix2 j k)) + x9 (ix1 j)) 0 := by
  rw [val_main_v59_apply, val_main_v57_apply, val_main_v58_apply, val_main_cst_10_apply, v54_apply, v56_apply]
  simp only [Ideal.maximumf_def, Ideal.addf_def, Ideal.ofBits_def, Cert.Spec.ofBits_zero]

/-- The transposed second weight row, at an index. -/
theorem v60_apply (x10 : (⟨S1x24, .f32⟩ : BufTy).Contents (Elt Ideal)) (j : Fin 24) :
    val_main_v60 (F := Ideal) x10 (ix2 j (0 : Fin 1)) = x10 (ix2 (0 : Fin 1) j) := by
  rw [val_main_v60_apply]
  exact congrArg x10 (funext fun a => Fin.ext (by match a with | ⟨0, _⟩ => rfl | ⟨1, _⟩ => rfl))

/-- The second layer's product. -/
theorem v61_apply (x1 : (⟨S8192x4096, .f32⟩ : BufTy).Contents (Elt Ideal)) (x8 : (⟨S24x4096, .f32⟩ : BufTy).Contents (Elt Ideal)) (x9 : (⟨S24, .f32⟩ : BufTy).Contents (Elt Ideal)) (x10 : (⟨S1x24, .f32⟩ : BufTy).Contents (Elt Ideal)) (r : Fin 8192) :
    val_main_v61 (F := Ideal) x1 x8 x9 x10 (ix2 r (0 : Fin 1))
      = ∑ j : Fin 24, max ((∑ k : Fin 4096, x1 (ix2 r k) * x8 (ix2 j k)) + x9 (ix1 j)) 0 * x10 (ix2 (0 : Fin 1) j) := by
  rw [val_main_v61_apply]
  refine Finset.sum_congr rfl fun j _ => ?_
  have hl : lidx_main_v61 (ix2 r (0 : Fin 1)) j = ix2 r j := funext fun a => Fin.ext (by match a with | ⟨0, _⟩ => rfl | ⟨1, _⟩ => rfl)
  have hr : ridx_main_v61 (ix2 r (0 : Fin 1)) j = ix2 j (0 : Fin 1) := funext fun a => Fin.ext (by match a with | ⟨0, _⟩ => rfl | ⟨1, _⟩ => rfl)
  rw [hl, hr, v59_apply, v60_apply]

/-- The second bias, broadcast over the rows. -/
theorem v63_apply (x11 : (⟨S1, .f32⟩ : BufTy).Contents (Elt Ideal)) (r : Fin 8192) :
    val_main_v63 (F := Ideal) x11 (ix2 r (0 : Fin 1)) = x11 (ix1 (0 : Fin 1)) := by
  rw [val_main_v63_apply, val_main_v62_apply]
  exact congrArg x11 (funext fun a => Fin.ext (by match a with | ⟨0, _⟩ => rfl))

/-- The small network's output on row `r`. -/
theorem v64_apply (x1 : (⟨S8192x4096, .f32⟩ : BufTy).Contents (Elt Ideal)) (x8 : (⟨S24x4096, .f32⟩ : BufTy).Contents (Elt Ideal)) (x9 : (⟨S24, .f32⟩ : BufTy).Contents (Elt Ideal)) (x10 : (⟨S1x24, .f32⟩ : BufTy).Contents (Elt Ideal)) (x11 : (⟨S1, .f32⟩ : BufTy).Contents (Elt Ideal)) (r : Fin 8192) :
    val_main_v64 (F := Ideal) x1 x8 x9 x10 x11 (ix2 r (0 : Fin 1))
      = (∑ j : Fin 24, max ((∑ k : Fin 4096, x1 (ix2 r k) * x8 (ix2 j k)) + x9 (ix1 j)) 0 * x10 (ix2 (0 : Fin 1) j))
          + x11 (ix1 (0 : Fin 1)) := by
  rw [val_main_v64_apply, v61_apply, v63_apply]
  rfl

/-- The blending weight of row `r`: the logistic function of the small network's output. -/
theorem coeff_apply (x1 : (⟨S8192x4096, .f32⟩ : BufTy).Contents (Elt Ideal)) (x8 : (⟨S24x4096, .f32⟩ : BufTy).Contents (Elt Ideal)) (x9 : (⟨S24, .f32⟩ : BufTy).Contents (Elt Ideal)) (x10 : (⟨S1x24, .f32⟩ : BufTy).Contents (Elt Ideal)) (x11 : (⟨S1, .f32⟩ : BufTy).Contents (Elt Ideal)) (r : Fin 8192) :
    val_main_v70 (F := Ideal) x1 x8 x9 x10 x11 (ix2 r (0 : Fin 1))
      = coeffRow (curry2 x1 r) (curry2 x8) (curry1 x9) (row0 x10) (x11 (ix1 (0 : Fin 1))) := by
  rw [val_main_v70_apply, val_main_v69_apply, val_main_cst_12_apply, val_main_v68_apply, val_main_v67_apply,
    val_main_cst_11_apply, val_main_v66_apply, val_main_v65_apply, v64_apply]
  simp only [Ideal.hostDivf_def, Ideal.addf_def, Ideal.ofBits_def, Ideal.hostUnary_exp_def, Ideal.hostNegf_def,
    Ideal.negf_def, Cert.Spec.one_eq]
  rfl

/-! ## The column statistics -/

/-- The column mean. -/
theorem mean_apply (x0 : (⟨S8192x4096, .f32⟩ : BufTy).Contents (Elt Ideal)) (d : Fin 4096) :
    val_main_v2 (F := Ideal) x0 (ix1 d) = mean (curry2 x0) d := by
  rw [val_main_v2_apply, val_main_v0_apply, val_main_v1_apply, val_main_cst_apply, val_main_cst_0_apply]
  simp only [Ideal.hostDivf_def, Ideal.ofBits_def, Cert.Spec.ofBits_zero, zero_add]
  unfold mean colSum
  exact congrArg (Ideal.div · _) (Finset.sum_congr rfl fun k _ => congrArg x0 (funext fun a => Fin.ext (by match a with | ⟨0, _⟩ => rfl | ⟨1, _⟩ => rfl)))

/-- The column mean, broadcast over the rows (first copy). -/
theorem v4_apply (x0 : (⟨S8192x4096, .f32⟩ : BufTy).Contents (Elt Ideal)) (r : Fin 8192) (d : Fin 4096) :
    val_main_v4 (F := Ideal) x0 (ix2 r d) = mean (curry2 x0) d := by
  rw [val_main_v4_apply, val_main_v3_apply]
  exact (congrArg (val_main_v2 (F := Ideal) x0) (funext fun a => Fin.ext (by match a with | ⟨0, _⟩ => rfl))).trans (mean_apply x0 d)

/-- The column mean, broadcast over the rows (second copy). -/
theorem v12_apply (x0 : (⟨S8192x4096, .f32⟩ : BufTy).Contents (Elt Ideal)) (r : Fin 8192) (d : Fin 4096) :
    val_main_v12 (F := Ideal) x0 (ix2 r d) = mean (curry2 x0) d := by
  rw [val_main_v12_apply, val_main_v11_apply]
  exact (congrArg (val_main_v2 (F := Ideal) x0) (funext fun a => Fin.ext (by match a with | ⟨0, _⟩ => rfl))).trans (mean_apply x0 d)

/-- The squared deviation from the column mean. -/
theorem v6_apply (x0 : (⟨S8192x4096, .f32⟩ : BufTy).Contents (Elt Ideal)) (r : Fin 8192) (d : Fin 4096) :
    val_main_v6 (F := Ideal) x0 (ix2 r d)
      = (x0 (ix2 r d) - mean (curry2 x0) d) * (x0 (ix2 r d) - mean (curry2 x0) d) := by
  rw [val_main_v6_apply, val_main_v5_apply, v4_apply]
  rfl

/-- The column's standard deviation: the sum of squared deviations over `n - 1`, rooted. -/
theorem std_apply (x0 : (⟨S8192x4096, .f32⟩ : BufTy).Contents (Elt Ideal)) (d : Fin 4096) :
    val_main_v10 (F := Ideal) x0 (ix1 d) = stdOf (spreadR (curry2 x0)) d := by
  rw [val_main_v10_apply, val_main_v9_apply, val_main_v7_apply, val_main_v8_apply, val_main_cst_1_apply,
    val_main_cst_2_apply]
  simp only [Ideal.hostUnary_sqrt_def, Ideal.hostDivf_def, Ideal.ofBits_def, Cert.Spec.ofBits_zero, zero_add]
  unfold stdOf spreadR
  refine congrArg (fun s => Ideal.sqrt (Ideal.div s _)) (Finset.sum_congr rfl fun k _ => ?_)
  have hk : idx_main_v7 (ix1 d) k = ix2 k d := funext fun a => Fin.ext (by match a with | ⟨0, _⟩ => rfl | ⟨1, _⟩ => rfl)
  rw [hk, v6_apply]

/-- The standard deviation plus the small constant, broadcast over the rows. -/
theorem v17_apply (x0 : (⟨S8192x4096, .f32⟩ : BufTy).Contents (Elt Ideal)) (r : Fin 8192) (d : Fin 4096) :
    val_main_v17 (F := Ideal) x0 (ix2 r d) = stdOf (spreadR (curry2 x0)) d + eps7 := by
  rw [val_main_v17_apply, val_main_v16_apply]
  have hk : idx_main_v16 (idx_main_v17 (ix2 r d)) = ix1 d := funext fun a => Fin.ext (by match a with | ⟨0, _⟩ => rfl)
  rw [hk, val_main_v15_apply, val_main_v14_apply, val_main_cst_3_apply, std_apply]
  rfl

/-- The centred and scaled row. -/
theorem x0_apply (x0 : (⟨S8192x4096, .f32⟩ : BufTy).Contents (Elt Ideal)) (r : Fin 8192) (d : Fin 4096) :
    val_main_v18 (F := Ideal) x0 (ix2 r d) = x0row (curry2 x0 r) (mean (curry2 x0)) (stdOf (spreadR (curry2 x0))) d := by
  rw [val_main_v18_apply, val_main_v13_apply, v12_apply, v17_apply]
  rfl

/-! ## The two low-rank layers -/

/-- The first layer's inner product: the centred row against row `k` of `v0`. -/
theorem v20_apply (x0 : (⟨S8192x4096, .f32⟩ : BufTy).Contents (Elt Ideal)) (x3 : (⟨S16x4096, .f32⟩ : BufTy).Contents (Elt Ideal)) (r : Fin 8192) (k : Fin 16) :
    val_main_v20 (F := Ideal) x0 x3 (ix2 r k)
      = ∑ j : Fin 4096, x0row (curry2 x0 r) (mean (curry2 x0)) (stdOf (spreadR (curry2 x0))) j * curry2 x3 k j := by
  rw [val_main_v20_apply]
  refine Finset.sum_congr rfl fun j _ => ?_
  have hl : lidx_main_v20 (ix2 r k) j = ix2 r j := funext fun a => Fin.ext (by match a with | ⟨0, _⟩ => rfl | ⟨1, _⟩ => rfl)
  have hr : ridx_main_v20 (ix2 r k) j = ix2 j k := funext fun a => Fin.ext (by match a with | ⟨0, _⟩ => rfl | ⟨1, _⟩ => rfl)
  rw [hl, hr, x0_apply, val_main_v19_apply]
  exact congrArg (_ * x3 ·) (funext fun a => Fin.ext (by match a with | ⟨0, _⟩ => rfl | ⟨1, _⟩ => rfl))

/-- The first layer, clamped at zero. -/
theorem v27_apply (x0 : (⟨S8192x4096, .f32⟩ : BufTy).Contents (Elt Ideal)) (x2 : (⟨S4096x16, .f32⟩ : BufTy).Contents (Elt Ideal)) (x3 : (⟨S16x4096, .f32⟩ : BufTy).Contents (Elt Ideal)) (x4 : (⟨S4096, .f32⟩ : BufTy).Contents (Elt Ideal)) (r : Fin 8192) (d : Fin 4096) :
    val_main_v27 (F := Ideal) x0 x2 x3 x4 (ix2 r d) = layer (x0row (curry2 x0 r) (mean (curry2 x0)) (stdOf (spreadR (curry2 x0)))) (curry2 x2) (curry2 x3) (curry1 x4) d := by
  rw [val_main_v27_apply, val_main_v25_apply, val_main_v26_apply, val_main_cst_4_apply, val_main_v22_apply,
    val_main_v24_apply, val_main_v23_apply]
  simp only [Ideal.maximumf_def, Ideal.addf_def, Ideal.ofBits_def, Cert.Spec.ofBits_zero]
  unfold layer
  refine congrArg₂ (fun s b => max (s + b) 0) (Finset.sum_congr rfl fun k _ => ?_) (congrArg x4 (funext fun a => Fin.ext (by match a with | ⟨0, _⟩ => rfl)))
  have hl : lidx_main_v22 (ix2 r d) k = ix2 r k := funext fun a => Fin.ext (by match a with | ⟨0, _⟩ => rfl | ⟨1, _⟩ => rfl)
  have hr : ridx_main_v22 (ix2 r d) k = ix2 k d := funext fun a => Fin.ext (by match a with | ⟨0, _⟩ => rfl | ⟨1, _⟩ => rfl)
  rw [hl, hr, v20_apply, val_main_v21_apply]
  exact congrArg (_ * x2 ·) (funext fun a => Fin.ext (by match a with | ⟨0, _⟩ => rfl | ⟨1, _⟩ => rfl))

/-- The second layer's inner product: the first layer's row against row `k` of `v1`. -/
theorem v29_apply (x0 : (⟨S8192x4096, .f32⟩ : BufTy).Contents (Elt Ideal)) (x2 : (⟨S4096x16, .f32⟩ : BufTy).Contents (Elt Ideal)) (x3 : (⟨S16x4096, .f32⟩ : BufTy).Contents (Elt Ideal)) (x4 : (⟨S4096, .f32⟩ : BufTy).Contents (Elt Ideal)) (x6 : (⟨S16x4096, .f32⟩ : BufTy).Contents (Elt Ideal)) (r : Fin 8192) (k : Fin 16) :
    val_main_v29 (F := Ideal) x0 x2 x3 x4 x6 (ix2 r k)
      = ∑ j : Fin 4096, layer (x0row (curry2 x0 r) (mean (curry2 x0)) (stdOf (spreadR (curry2 x0)))) (curry2 x2) (curry2 x3) (curry1 x4) j * curry2 x6 k j := by
  rw [val_main_v29_apply]
  refine Finset.sum_congr rfl fun j _ => ?_
  have hl : lidx_main_v29 (ix2 r k) j = ix2 r j := funext fun a => Fin.ext (by match a with | ⟨0, _⟩ => rfl | ⟨1, _⟩ => rfl)
  have hr : ridx_main_v29 (ix2 r k) j = ix2 j k := funext fun a => Fin.ext (by match a with | ⟨0, _⟩ => rfl | ⟨1, _⟩ => rfl)
  rw [hl, hr, v27_apply, val_main_v28_apply]
  exact congrArg (_ * x6 ·) (funext fun a => Fin.ext (by match a with | ⟨0, _⟩ => rfl | ⟨1, _⟩ => rfl))

/-- The centred row through both layers. -/
theorem x2_apply (x0 : (⟨S8192x4096, .f32⟩ : BufTy).Contents (Elt Ideal)) (x2 : (⟨S4096x16, .f32⟩ : BufTy).Contents (Elt Ideal)) (x3 : (⟨S16x4096, .f32⟩ : BufTy).Contents (Elt Ideal)) (x4 : (⟨S4096, .f32⟩ : BufTy).Contents (Elt Ideal)) (x5 : (⟨S4096x16, .f32⟩ : BufTy).Contents (Elt Ideal)) (x6 : (⟨S16x4096, .f32⟩ : BufTy).Contents (Elt Ideal)) (x7 : (⟨S4096, .f32⟩ : BufTy).Contents (Elt Ideal)) (r : Fin 8192) (d : Fin 4096) :
    val_main_v36 (F := Ideal) x0 x2 x3 x4 x5 x6 x7 (ix2 r d) = x2row (curry2 x0 r) (mean (curry2 x0)) (stdOf (spreadR (curry2 x0))) (curry2 x2) (curry2 x3) (curry1 x4) (curry2 x5) (curry2 x6) (curry1 x7) d := by
  rw [val_main_v36_apply, val_main_v34_apply, val_main_v35_apply, val_main_cst_5_apply, val_main_v31_apply,
    val_main_v33_apply, val_main_v32_apply]
  simp only [Ideal.maximumf_def, Ideal.addf_def, Ideal.ofBits_def, Cert.Spec.ofBits_zero]
  unfold x2row
  rw [layer]
  refine congrArg₂ (fun s b => max (s + b) 0) (Finset.sum_congr rfl fun k _ => ?_) (congrArg x7 (funext fun a => Fin.ext (by match a with | ⟨0, _⟩ => rfl)))
  have hl : lidx_main_v31 (ix2 r d) k = ix2 r k := funext fun a => Fin.ext (by match a with | ⟨0, _⟩ => rfl | ⟨1, _⟩ => rfl)
  have hr : ridx_main_v31 (ix2 r d) k = ix2 k d := funext fun a => Fin.ext (by match a with | ⟨0, _⟩ => rfl | ⟨1, _⟩ => rfl)
  rw [hl, hr, v29_apply, val_main_v30_apply]
  exact congrArg (_ * x5 ·) (funext fun a => Fin.ext (by match a with | ⟨0, _⟩ => rfl | ⟨1, _⟩ => rfl))

/-! ## The row lengths and the rescaled row -/

/-- The length of the row after both layers, plus the small constant. -/
theorem n2_apply (x0 : (⟨S8192x4096, .f32⟩ : BufTy).Contents (Elt Ideal)) (x2 : (⟨S4096x16, .f32⟩ : BufTy).Contents (Elt Ideal)) (x3 : (⟨S16x4096, .f32⟩ : BufTy).Contents (Elt Ideal)) (x4 : (⟨S4096, .f32⟩ : BufTy).Contents (Elt Ideal)) (x5 : (⟨S4096x16, .f32⟩ : BufTy).Contents (Elt Ideal)) (x6 : (⟨S16x4096, .f32⟩ : BufTy).Contents (Elt Ideal)) (x7 : (⟨S4096, .f32⟩ : BufTy).Contents (Elt Ideal)) (r : Fin 8192) :
    val_main_v41 (F := Ideal) x0 x2 x3 x4 x5 x6 x7 (ix1 r) = rowNorm (x2row (curry2 x0 r) (mean (curry2 x0)) (stdOf (spreadR (curry2 x0))) (curry2 x2) (curry2 x3) (curry1 x4) (curry2 x5) (curry2 x6) (curry1 x7)) := by
  rw [val_main_v41_apply, val_main_v39_apply, val_main_v38_apply, val_main_v40_apply, val_main_cst_6_apply,
    val_main_cst_7_apply]
  simp only [Ideal.hostUnary_sqrt_def, Ideal.addf_def, Ideal.ofBits_def, Cert.Spec.ofBits_zero, zero_add]
  unfold rowNorm
  refine congrArg (fun s => Ideal.sqrt s + _) (Finset.sum_congr rfl fun k _ => ?_)
  have hk : idx_main_v38 (ix1 r) k = ix2 r k := funext fun a => Fin.ext (by match a with | ⟨0, _⟩ => rfl | ⟨1, _⟩ => rfl)
  rw [hk, val_main_v37_apply, x2_apply]
  rfl

/-- The length of the centred row, plus the small constant. -/
theorem n0_apply (x0 : (⟨S8192x4096, .f32⟩ : BufTy).Contents (Elt Ideal)) (r : Fin 8192) :
    val_main_v46 (F := Ideal) x0 (ix1 r) = rowNorm (x0row (curry2 x0 r) (mean (curry2 x0)) (stdOf (spreadR (curry2 x0)))) := by
  rw [val_main_v46_apply, val_main_v44_apply, val_main_v43_apply, val_main_v45_apply, val_main_cst_8_apply,
    val_main_cst_9_apply]
  simp only [Ideal.hostUnary_sqrt_def, Ideal.addf_def, Ideal.ofBits_def, Cert.Spec.ofBits_zero, zero_add]
  unfold rowNorm
  refine congrArg (fun s => Ideal.sqrt s + _) (Finset.sum_congr rfl fun k _ => ?_)
  have hk : idx_main_v43 (ix1 r) k = ix2 r k := funext fun a => Fin.ext (by match a with | ⟨0, _⟩ => rfl | ⟨1, _⟩ => rfl)
  rw [hk, val_main_v42_apply, x0_apply]
  rfl

/-- The row after both layers, divided by its length and multiplied by the centred row's length. -/
theorem v52_apply (x0 : (⟨S8192x4096, .f32⟩ : BufTy).Contents (Elt Ideal)) (x2 : (⟨S4096x16, .f32⟩ : BufTy).Contents (Elt Ideal)) (x3 : (⟨S16x4096, .f32⟩ : BufTy).Contents (Elt Ideal)) (x4 : (⟨S4096, .f32⟩ : BufTy).Contents (Elt Ideal)) (x5 : (⟨S4096x16, .f32⟩ : BufTy).Contents (Elt Ideal)) (x6 : (⟨S16x4096, .f32⟩ : BufTy).Contents (Elt Ideal)) (x7 : (⟨S4096, .f32⟩ : BufTy).Contents (Elt Ideal)) (r : Fin 8192) (d : Fin 4096) :
    val_main_v52 (F := Ideal) x0 x2 x3 x4 x5 x6 x7 (ix2 r d)
      = Ideal.div (x2row (curry2 x0 r) (mean (curry2 x0)) (stdOf (spreadR (curry2 x0))) (curry2 x2) (curry2 x3) (curry1 x4) (curry2 x5) (curry2 x6) (curry1 x7) d) (rowNorm (x2row (curry2 x0 r) (mean (curry2 x0)) (stdOf (spreadR (curry2 x0))) (curry2 x2) (curry2 x3) (curry1 x4) (curry2 x5) (curry2 x6) (curry1 x7))) * rowNorm (x0row (curry2 x0 r) (mean (curry2 x0)) (stdOf (spreadR (curry2 x0)))) := by
  rw [val_main_v52_apply, val_main_v49_apply, val_main_v48_apply, val_main_v47_apply, val_main_v51_apply,
    val_main_v50_apply, x2_apply]
  have h2 : idx_main_v47 (idx_main_v48 (ix2 r d)) = ix1 r := funext fun a => Fin.ext (by match a with | ⟨0, _⟩ => rfl)
  have h0 : idx_main_v50 (idx_main_v51 (ix2 r d)) = ix1 r := funext fun a => Fin.ext (by match a with | ⟨0, _⟩ => rfl)
  rw [h2, h0, n2_apply, n0_apply]
  rfl

/-! ## The blend -/

/-- The reference's result at row `r`, column `d`. -/
theorem out_apply (x0 x1 : (⟨S8192x4096, .f32⟩ : BufTy).Contents (Elt Ideal)) (x2 : (⟨S4096x16, .f32⟩ : BufTy).Contents (Elt Ideal)) (x3 : (⟨S16x4096, .f32⟩ : BufTy).Contents (Elt Ideal)) (x4 : (⟨S4096, .f32⟩ : BufTy).Contents (Elt Ideal)) (x5 : (⟨S4096x16, .f32⟩ : BufTy).Contents (Elt Ideal)) (x6 : (⟨S16x4096, .f32⟩ : BufTy).Contents (Elt Ideal)) (x7 : (⟨S4096, .f32⟩ : BufTy).Contents (Elt Ideal)) (x8 : (⟨S24x4096, .f32⟩ : BufTy).Contents (Elt Ideal)) (x9 : (⟨S24, .f32⟩ : BufTy).Contents (Elt Ideal)) (x10 : (⟨S1x24, .f32⟩ : BufTy).Contents (Elt Ideal)) (x11 : (⟨S1, .f32⟩ : BufTy).Contents (Elt Ideal)) (r : Fin 8192) (d : Fin 4096) :
    val_main_v77 (F := Ideal) x0 x1 x2 x3 x4 x5 x6 x7 x8 x9 x10 x11 (ix2 r d)
      = outRrow (curry2 x0 r) (curry2 x1 r) (mean (curry2 x0)) (stdOf (spreadR (curry2 x0)))
          (curry2 x2) (curry2 x3) (curry1 x4) (curry2 x5) (curry2 x6) (curry1 x7)
          (curry2 x8) (curry1 x9) (row0 x10) (x11 (ix1 (0 : Fin 1))) d := by
  rw [val_main_v77_apply, val_main_v74_apply, val_main_v76_apply, val_main_v73_apply, val_main_v75_apply,
    val_main_v72_apply, val_main_v71_apply, val_main_cst_13_apply, v52_apply, x0_apply]
  have hc : idx_main_v73 (ix2 r d) = ix2 r (0 : Fin 1) := funext fun a => Fin.ext (by match a with | ⟨0, _⟩ => rfl | ⟨1, _⟩ => rfl)
  have hc' : idx_main_v75 (ix2 r d) = ix2 r (0 : Fin 1) := funext fun a => Fin.ext (by match a with | ⟨0, _⟩ => rfl | ⟨1, _⟩ => rfl)
  rw [hc, hc', coeff_apply]
  rfl

end Cert.ReferenceIdeal.RefValue

end
-- ==== Proof.LibBatchNorm.lean ====
/-
  Column normalisation ("batch norm") on the extended reals, for data that are finite reals.

  For a finite family of reals `x i`, `n` their number, `m = (∑ x)/n` their mean:
  * the mean of the squares minus the square of the mean is the mean of the squared deviations
    (`var_forms`):  (∑ x²)/n − m·m = (∑ (x − m)²)/n ;
  * scaling by `γ·r` and shifting by `β − m·(γ·r)` is centring, scaling by `r`, then by `γ`, then shifting by `β`
    (`affine_forms`):  x·(γ·r) + (β − m·(γ·r)) = (x − m)·r·γ + β .
  Both are identities of real numbers; they are stated on the extended reals with the quotient `Ideal.div` the
  idealised float division, because that is where two programs that compute a variance or a normalised value in the two
  ways have to be compared. They need every datum to be a real: at an infinity `∞ − ∞` is not `0`.
  Also here: a finite sum of reals, and of products of reals, is a real (`sum_coe`, `sum_mul_coe`), the idealised quotient by a nonzero real is the real
  quotient (`div_coe_coe`), and the idealised reciprocal square root of a positive real is a real (`rsqrt_coe_pos`).
-/
import Idealize.ShloMosaic.PureOps.Ideal

noncomputable section

namespace Idealize.ShloMosaic.LibBatchNorm

open Idealize.ShloMosaic

/-- A finite sum of reals, formed on the extended reals, is the real sum. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of products of reals (a dot product), formed on the extended reals, is the real one. -/
theorem sum_mul_coe {ι : Type*} (s : Finset ι) (a b : ι → ℝ) :
    (∑ i ∈ s, ((a i : ℝ) : EReal) * ((b i : ℝ) : EReal)) = ((∑ i ∈ s, a i * b i : ℝ) : EReal) := by
  simp only [← EReal.coe_mul, sum_coe]

/-- The idealised quotient of a real by a nonzero real is the real quotient. -/
theorem div_coe_coe (a : ℝ) {n : ℝ} (hn : n ≠ 0) : Ideal.div (a : EReal) (n : EReal) = ((a / n : ℝ) : EReal) := by
  rw [Ideal.div_coe hn, ← EReal.coe_mul]; congr 1; rw [mul_one_div]

/-- The idealised reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- Over the reals: the mean of the squares minus the squared mean is the mean of the squared deviations. -/
theorem var_forms_real {ι : Type*} [Fintype ι] (x : ι → ℝ) {n : ℝ} (hn : n ≠ 0) (hcard : (Fintype.card ι : ℝ) = n) :
    (∑ i, x i * x i) / n - ((∑ i, x i) / n) * ((∑ i, x i) / n)
      = (∑ i, (x i - (∑ j, x j) / n) * (x i - (∑ j, x j) / n)) / n := by
  set S := ∑ j, x j with hS
  have h1 : ∑ i, (x i - S / n) * (x i - S / n) = ∑ i, x i * x i - 2 * (S / n) * S + n * ((S / n) * (S / n)) := by
    have : ∀ i, (x i - S / n) * (x i - S / n) = x i * x i - 2 * (S / n) * x i + (S / n) * (S / n) := fun i => by ring
    simp only [this, Finset.sum_add_distrib, Finset.sum_sub_distrib, ← Finset.mul_sum, Finset.sum_const, Finset.card_univ,
      nsmul_eq_mul, hcard, ← hS]
    ring
  rw [h1]; field_simp; ring

/-- On the extended reals, with the idealised quotient, for real data (`var_forms_real` carried over). -/
theorem var_forms {ι : Type*} [Fintype ι] (x : ι → ℝ) {n : ℝ} (hn : n ≠ 0) (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [← EReal.coe_mul, sum_coe, div_coe_coe _ hn, ← EReal.coe_sub]
  exact congrArg _ (var_forms_real x hn hcard)

/-- Scale-and-shift against centre-scale-shift, for reals read as extended reals. -/
theorem affine_forms (x m r g b : ℝ) :
    (x : EReal) * ((g : EReal) * (r : EReal)) + ((b : EReal) - (m : EReal) * ((g : EReal) * (r : EReal)))
      = ((x : EReal) - (m : EReal)) * (r : EReal) * (g : EReal) + (b : EReal) := by
  simp only [← EReal.coe_mul, ← EReal.coe_sub, ← EReal.coe_add]
  exact congrArg _ (by ring)

end Idealize.ShloMosaic.LibBatchNorm

end
-- ==== Proof.Bridge.lean ====
/-
  The two writings of the specification agree.

  * The spread of a column of reals: the sum of the squares less `n · μ · μ` is the sum of the squared deviations
    from the mean `μ = (∑ x) / n` (an identity of real numbers, carried to the extended reals; it needs every
    entry to be a real, since `∞ − ∞` is not `0`).
  * The precondition — a conjunction of twelve tests "every entry has absolute value below `+∞`", one per
    argument array — gives, for the first array, that every entry is a real: an extended real `x` with
    `max x (−x) < ⊤` is neither `⊤` nor `⊥`.
  * The rescaling `x · (a / n)` is `(x / n) · a` for every extended real `x`, `a`, because the divisor
    `n = √S + ε` with `ε > 0` is never `0`: the root is `⊥`, `⊤` or a nonnegative real, so `n` is `⊥`, `⊤`
    or a positive real, and off zero the quotient is the product with the inverse, in a commutative monoid.
-/
import proofs.«163950_j9002251453028_2_alg».proof.Proof.Spec
import proofs.«163950_j9002251453028_2_alg».proof.Proof.LibBatchNorm
import proofs.«163950_j9002251453028_2_alg».proof.Proof.LibRowReads
import proofs.«163950_j9002251453028_2_alg».proof.Pre_finite_inputs
import Idealize.ShloMosaic.Lib.ReduceAll
import Idealize.ShloMosaic.Lib.ValueIdx
import Idealize.ShloMosaic.Lib.Pipeline.Value

noncomputable section

namespace Cert.Bridge

open Idealize.ShloMosaic Idealize.ShloMosaic.LibBatchNorm
open Cert.Spec
open scoped BigOperators

/-! ## The spread of a column of reals -/

/-- Over the reals: the sum of the squares less `n · m · m`, `m` the mean, is the sum of the squared deviations. -/
theorem spread_forms_real (x : Fin 8192 → ℝ) :
    ∑ b, x b * x b - 8192 * ((∑ b, x b) / 8192) * ((∑ b, x b) / 8192)
      = ∑ b, (x b - (∑ j, x j) / 8192) * (x b - (∑ j, x j) / 8192) := by
  set S := ∑ j, x j with hS
  have hsq : ∀ i, (x i - S / 8192) * (x i - S / 8192) = x i * x i - 2 * (S / 8192) * x i + (S / 8192) * (S / 8192) :=
    fun i => by ring
  simp only [hsq, Finset.sum_add_distrib, Finset.sum_sub_distrib, ← Finset.mul_sum, Finset.sum_const, Finset.card_univ,
    Fintype.card_fin, nsmul_eq_mul, ← hS]
  push_cast
  ring

/-- The same on the extended reals, with the idealised quotient, for a column of reals. -/
theorem spread_forms (x : Fin 8192 → ℝ) :
    (∑ b, ((x b : ℝ) : EReal) * ((x b : ℝ) : EReal))
        - ((8192 : ℝ) : EReal) * Ideal.div (∑ b, ((x b : ℝ) : EReal)) ((8192 : ℝ) : EReal)
          * Ideal.div (∑ b, ((x b : ℝ) : EReal)) ((8192 : ℝ) : EReal)
      = ∑ b, (((x b : ℝ) : EReal) - Ideal.div (∑ j, ((x j : ℝ) : EReal)) ((8192 : ℝ) : EReal))
          * (((x b : ℝ) : EReal) - Ideal.div (∑ j, ((x j : ℝ) : EReal)) ((8192 : ℝ) : EReal)) := by
  have h8 : (8192 : ℝ) ≠ 0 := by norm_num
  simp only [← EReal.coe_mul, sum_coe, div_coe_coe _ h8, ← EReal.coe_sub]
  exact congrArg _ (spread_forms_real x)

/-- For real data the two spreads of a column agree. -/
theorem spread_eq (g : Fin 8192 → Fin 4096 → EReal) (hg : ∀ b d, ∃ x : ℝ, g b d = (x : EReal)) (d : Fin 4096) :
    spreadK g d = spreadR g d := by
  choose G hG using hg
  have hcN : cN = ((8192 : ℝ) : EReal) := cN_eq
  unfold spreadK spreadR colSumSq mean colSum
  simp only [hG]
  rw [hcN]
  exact spread_forms (fun b => G b d)

/-- For real data the two standard deviations agree. -/
theorem std_eq (g : Fin 8192 → Fin 4096 → EReal) (hg : ∀ b d, ∃ x : ℝ, g b d = (x : EReal)) :
    stdOf (spreadK g) = stdOf (spreadR g) := by
  funext d
  unfold stdOf
  rw [spread_eq g hg d]

/-! ## The rescaling -/

/-- A root plus the small positive constant is never zero. -/
theorem sqrt_add_eps8_ne_zero (S : EReal) : Ideal.sqrt S + eps8 ≠ 0 := by
  have hpos : (0 : EReal) < eps8 := eps8_pos
  induction S using EReal.rec with
  | bot => rw [Ideal.sqrt_bot, EReal.bot_add]; exact EReal.bot_ne_zero
  | top => rw [Ideal.sqrt_top, EReal.top_add_of_ne_bot (ne_bot_of_gt hpos)]; exact EReal.top_ne_zero
  | coe r =>
    rw [Ideal.sqrt_coe]
    split_ifs with h
    · rw [EReal.bot_add]; exact EReal.bot_ne_zero
    · have h0 : (0 : EReal) ≤ ((Real.sqrt r : ℝ) : EReal) := by exact_mod_cast Real.sqrt_nonneg r
      exact (lt_of_lt_of_le hpos (le_add_of_nonneg_left h0)).ne'

/-- A row's length plus the small constant is never zero. -/
theorem rowNorm_ne_zero (x : Fin 4096 → EReal) : rowNorm x ≠ 0 := sqrt_add_eps8_ne_zero _

/-- Off zero the idealised quotient is the product with the inverse. -/
theorem div_of_ne_zero (x : EReal) {n : EReal} (hn : n ≠ 0) : Ideal.div x n = x * n⁻¹ := by
  unfold Ideal.div
  rw [if_neg hn]

/-- `x · (a / n) = (x / n) · a` for the never-zero divisor `n` of a row. -/
theorem rescale_eq (x a : EReal) (y : Fin 4096 → EReal) :
    x * Ideal.div a (rowNorm y) = Ideal.div x (rowNorm y) * a := by
  rw [div_of_ne_zero a (rowNorm_ne_zero y), div_of_ne_zero x (rowNorm_ne_zero y), mul_comm a, mul_assoc]

/-- The two writings of the blended row agree, for all extended reals. -/
theorem outRow_eq (grow erow μ σ : Fin 4096 → EReal) (u0 : Fin 4096 → Fin 16 → EReal) (v0 : Fin 16 → Fin 4096 → EReal)
    (b0 : Fin 4096 → EReal) (u1 : Fin 4096 → Fin 16 → EReal) (v1 : Fin 16 → Fin 4096 → EReal) (b1 : Fin 4096 → EReal)
    (w1 : Fin 24 → Fin 4096 → EReal) (bw1 : Fin 24 → EReal) (w2 : Fin 24 → EReal) (bw2 : EReal) :
    outKrow grow erow μ σ u0 v0 b0 u1 v1 b1 w1 bw1 w2 bw2 = outRrow grow erow μ σ u0 v0 b0 u1 v1 b1 w1 bw1 w2 bw2 := by
  funext d
  unfold outKrow outRrow
  rw [rescale_eq (x2row grow μ σ u0 v0 b0 u1 v1 b1 d) (rowNorm (x0row grow μ σ)) (x2row grow μ σ u0 v0 b0 u1 v1 b1)]

/-! ## The precondition gives real entries -/

section Finite
open Cert.Pre_finite_inputs

/-- An extended real whose absolute value `max x (−x)` is below `+∞` is a real. -/
theorem real_of_abs_lt (x y : EReal) (hy : y = Ideal.ofBits .f32 0x7F800000#32)
    (h : Ideal.cmp .olt (max x (-x)) y = 1#1) : ∃ r : ℝ, x = (r : EReal) := by
  have htop : Ideal.ofBits .f32 0x7F800000#32 = ⊤ := by simp [Ideal.ofBits, Ideal.ieee]
  rw [hy, htop] at h
  induction x using EReal.rec with
  | bot => exfalso; revert h; simp [Ideal.cmp]
  | top => exfalso; revert h; simp [Ideal.cmp]
  | coe r => exact ⟨r, rfl⟩

variable [Facts]

/-- The last part of the conjunction is `1` only if the conjunction so far is. -/
theorem part3_one (a11 : FVec Ideal S1 .f32) (v48 : IVec S_ 1) (v49 v50 : FVec Ideal S1x24 .f32) (j : S_.Idx)
    (h : fn_part3 (F := Ideal) a11 v48 v49 v50 j = 1#1) : v48 j = 1#1 := by
  unfold fn_part3 at h
  dsimp only at h
  exact (IntOp.andi_eq_one.1 (IntOp.andi_eq_one.1 h).1).1

/-- The middle part of the conjunction is `1` only if the conjunction so far is. -/
theorem part2_one (a7 : FVec Ideal S4096 .f32) (a8 : FVec Ideal S24x4096 .f32) (a9 : FVec Ideal S24 .f32)
    (a10 : FVec Ideal S1x24 .f32) (a11 : FVec Ideal S1 .f32) (v33 : IVec S_ 1) (j : S_.Idx)
    (h : fn_part2 (F := Ideal) a7 a8 a9 a10 a11 v33 j = 1#1) : v33 j = 1#1 := by
  unfold fn_part2 at h
  dsimp only at h
  have h48 := part3_one _ _ _ _ j h
  exact (IntOp.andi_eq_one.1 (IntOp.andi_eq_one.1 (IntOp.andi_eq_one.1 h48).1).1).1

/-- The first part of the conjunction is `1` only if the conjunction so far is. -/
theorem part1_one (a4 : FVec Ideal S4096 .f32) (a5 : FVec Ideal S4096x16 .f32) (a6 : FVec Ideal S16x4096 .f32)
    (a7 : FVec Ideal S4096 .f32) (a8 : FVec Ideal S24x4096 .f32) (a9 : FVec Ideal S24 .f32)
    (a10 : FVec Ideal S1x24 .f32) (a11 : FVec Ideal S1 .f32) (v13 : IVec S_ 1) (v16 : IVec S16x4096 1) (j : S_.Idx)
    (h : fn_part1 (F := Ideal) a4 a5 a6 a7 a8 a9 a10 a11 v13 v16 j = 1#1) : v13 j = 1#1 := by
  unfold fn_part1 at h
  dsimp only at h
  have h33 := part2_one _ _ _ _ _ _ j h
  exact (IntOp.andi_eq_one.1 (IntOp.andi_eq_one.1 (IntOp.andi_eq_one.1 (IntOp.andi_eq_one.1 h33).1).1).1).1

/-- Under the precondition every entry of the first argument array is a real. -/
theorem grad_real (a0 a1 : FVec Ideal S8192x4096 .f32) (a2 : FVec Ideal S4096x16 .f32) (a3 : FVec Ideal S16x4096 .f32)
    (a4 : FVec Ideal S4096 .f32) (a5 : FVec Ideal S4096x16 .f32) (a6 : FVec Ideal S16x4096 .f32)
    (a7 : FVec Ideal S4096 .f32) (a8 : FVec Ideal S24x4096 .f32) (a9 : FVec Ideal S24 .f32)
    (a10 : FVec Ideal S1x24 .f32) (a11 : FVec Ideal S1 .f32)
    (h : fn (F := Ideal) a0 a1 a2 a3 a4 a5 a6 a7 a8 a9 a10 a11 = (fun _ => 1#1)) :
    ∀ i, ∃ x : ℝ, a0 i = (x : EReal) := by
  intro i
  have h0 : fn (F := Ideal) a0 a1 a2 a3 a4 a5 a6 a7 a8 a9 a10 a11 ValueIdx.ix0 = 1#1 := congrFun h ValueIdx.ix0
  unfold fn at h0
  dsimp only at h0
  have h13 := part1_one _ _ _ _ _ _ _ _ _ _ _ h0
  have h3 := (IntOp.andi_eq_one.1 (IntOp.andi_eq_one.1 h13).1).1
  have hel := Host.reduce_andi_eq_one _ _ _ _ _ h3 i (funext fun d => d.elim0)
  have hb : broadcastInDim S8192x4096 ![] Facts.bcast_S_S8192x4096 (constant (F := Ideal) S_ .f32 0x7F800000#32) i
      = Ideal.ofBits .f32 0x7F800000#32 := rfl
  exact real_of_abs_lt (a0 i) _ hb hel

end Finite

end Cert.Bridge

end
-- ==== Proof.Claims.lean ====
/-
  The five claims.

  The three frames: the word-level kernel's and the idealized kernel's are the generated frame certificates; the
  reference has no kernel, and its frame is its generated run with the results dropped. The idealization rewrote
  nothing, so `preserves` is trivial.

  The value claim. At the ideal instance the kernel's two result arrays end at `OutK` and `CoeffK` of the launch
  memory (the run read through both regions), and the reference's at its own composed term, which read at an index
  is the specification's `outRrow` / `coeffRow` of its arguments. The arguments agree. The two sides then differ in
  two places only: the spread of a column, written by the kernel as the sum of squares less `n · μ · μ` and by the
  reference as the sum of squared deviations — equal because the precondition makes every entry of the batch a real
  number —, and the rescaling of a row, `x · (a / b)` against `(x / b) · a` — equal on all extended reals because the
  divisor, a root plus a positive constant, is never zero.
-/
import proofs.«163950_j9002251453028_2_alg».proof.Defs
import proofs.«163950_j9002251453028_2_alg».proof.Proof.Gen.Kernel
import proofs.«163950_j9002251453028_2_alg».proof.Proof.Gen.Kernel.Frame
import proofs.«163950_j9002251453028_2_alg».proof.Proof.Gen.KernelIdeal
import proofs.«163950_j9002251453028_2_alg».proof.Proof.Gen.KernelIdeal.Frame
import proofs.«163950_j9002251453028_2_alg».proof.Proof.Gen.ReferenceIdeal
import proofs.«163950_j9002251453028_2_alg».proof.Proof.Gen.Pre_finite_inputs
import proofs.«163950_j9002251453028_2_alg».proof.Proof.KValue
import proofs.«163950_j9002251453028_2_alg».proof.Proof.RefValue
import proofs.«163950_j9002251453028_2_alg».proof.Proof.Bridge

noncomputable section

namespace Cert.Proof.Claims

open Idealize.ShloMosaic Idealize.ShloMosaic.TcCoe Idealize.SL.Sem Idealize.ShloMosaic.ValueIdx Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Val.OutK m c, fun c => Cert.KernelIdeal.Val.CoeffK m c,
    Cert.KernelIdeal.Val.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11⟩ := hagree c
  refine ⟨(h c).1.trans ?_, (h c).2.1.trans ((Cert.ReferenceIdeal.Read.val_main_v70_eq _ _ _ _ _).trans ?_), (h c).2.2⟩
  · rw [Cert.ReferenceIdeal.Read.val_main_v77_eq, a0, a1, a2, a3, a4, a5, a6, a7, a8, a9, a10, a11]
    funext i
    obtain ⟨r, d, rfl⟩ : ∃ (r : Fin 8192) (d : Fin 4096), i = ix2 r d := ⟨i 0, i 1, eq_ix2 i⟩
    rw [Cert.ReferenceIdeal.RefValue.out_apply]
    have hg : ∀ b d, ∃ x : ℝ, curry2 (Cert.KernelIdeal.Val.aGrad m c) b d = (x : EReal) := fun b d =>
      Cert.Bridge.grad_real _ _ _ _ _ _ _ _ _ _ _ _ (hpre c) (ix2 b d)
    rw [← Cert.Bridge.std_eq _ hg, ← Cert.Bridge.outRow_eq]
    rfl
  · rw [a1, a8, a9, a10, a11]
    funext i
    obtain ⟨r, u, rfl⟩ : ∃ (r : Fin 8192) (u : Fin 1), i = ix2 r u := ⟨i 0, i 1, eq_ix2 i⟩
    obtain rfl : u = 0 := Subsingleton.elim _ _
    rw [Cert.ReferenceIdeal.RefValue.coeff_apply]
    rfl

end Cert.Proof.Claims

end
-- ==== Proof.lean ====
/-
  The certificate's claim, assembled: the witnesses of the programs' stated side conditions (the generated
  instances), then the three frames, the idealization's faithfulness and the equality of the two idealized
  programs' results, each proved in Proof/Claims.lean.

  The mathematics, in one paragraph. The kernel normalises a batch of 8192 rows by its columns' mean and standard
  deviation, which it gets from one pass accumulating the column sums and the column sums of squares (the deviation
  from `∑ x² - n · μ²`), then sends every row through two low-rank layers with a clamp at zero, rescales it to the
  normalised row's length and blends it with the normalised row by a weight a small network computes from a second
  batch. The reference computes the same with the deviation from `∑ (x - μ)²` and the rescaling in another order.
  Over the extended reals the two spreads agree for real data and the two rescalings agree always.
-/
import proofs.«163950_j9002251453028_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
